-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1024 : Shape := ⟨3, ![1024, 64, 1024]⟩
abbrev S1x64x512 : Shape := ⟨3, ![1, 64, 512]⟩
abbrev S512x1536 : Shape := ⟨2, ![512, 1536]⟩
abbrev S1x512 : Shape := ⟨2, ![1, 512]⟩
abbrev S_ : Shape := ⟨0, ![]⟩

class Facts : Prop where
  bcast_S_S1024x64x1024 : S_.BroadcastsInDim S1024x64x1024 (![] : Fin 0 → Fin S1024x64x1024.rank)
  reducesTo_S1024x64x1024_S_d0_1_2 : S1024x64x1024.ReducesTo [0, 1, 2] S_
  h_S_ : 0 < S_.numel
  bcast_S_S1x64x512 : S_.BroadcastsInDim S1x64x512 (![] : Fin 0 → Fin S1x64x512.rank)
  reducesTo_S1x64x512_S_d0_1_2 : S1x64x512.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S1024x64x1024 .f32) (main_arg1 : FVec F S1x64x512 .f32) (main_arg2 : FVec F S512x1536 .f32) (main_arg3 : FVec F S1x512 .f32) : IVec S_ 1 :=
  let main_v0 : FVec F S1024x64x1024 .f32 := Host.absf main_arg0
  let main_cst : FVec F S_ .f32 := constant S_ .f32 0x7F800000#32
  let main_v1 : FVec F S1024x64x1024 .f32 := broadcastInDim S1024x64x1024 ![] bcast_S_S1024x64x1024 main_cst
  let main_v2 : IVec S1024x64x1024 1 := cmpf .olt main_v0 main_v1
  let main_c : IVec S_ 1 := constantI S_ 1 1#1
  let main_v3 : IVec S_ 1 := (fun x v => Host.reduce IntOp.andi x v reducesTo_S1024x64x1024_S_d0_1_2 h_S_) main_v2 main_c
  let main_v4 : FVec F S1x64x512 .f32 := Host.absf main_arg1
  let main_cst_0 : FVec F S_ .f32 := constant S_ .f32 0x7F800000#32
  let main_v5 : FVec F S1x64x512 .f32 := broadcastInDim S1x64x512 ![] bcast_S_S1x64x512 main_cst_0
  let main_v6 : IVec S1x64x512 1 := cmpf .olt main_v4 main_v5
  let main_c_1 : IVec S_ 1 := constantI S_ 1 1#1
  let main_v7 : IVec S_ 1 := (fun x v => Host.reduce IntOp.andi x v reducesTo_S1x64x512_S_d0_1_2 h_S_) main_v6 main_c_1
  let main_v8 : IVec S_ 1 := andi main_v3 main_v7
  let main_v9 : FVec F S512x1536 .f32 := Host.absf main_arg2
  let main_cst_2 : FVec F S_ .f32 := constant S_ .f32 0x7F800000#32
  let main_v10 : FVec F S512x1536 .f32 := broadcastInDim S512x1536 ![] bcast_S_S512x1536 main_cst_2
  let main_v11 : IVec S512x1536 1 := cmpf .olt main_v9 main_v10
  let main_c_3 : IVec S_ 1 := constantI S_ 1 1#1
  let main_v12 : IVec S_ 1 := (fun x v => Host.reduce IntOp.andi x v reducesTo_S512x1536_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Kernel.lean ====
abbrev S1024x64x1024 : Shape := ⟨3, ![1024, 64, 1024]⟩
abbrev S1x64x512 : Shape := ⟨3, ![1, 64, 512]⟩
abbrev S512x1536 : Shape := ⟨2, ![512, 1536]⟩
abbrev S1x512 : Shape := ⟨2, ![1, 512]⟩
abbrev S512x1024 : Shape := ⟨2, ![512, 1024]⟩
abbrev S512x512 : Shape := ⟨2, ![512, 512]⟩
abbrev S1024x512 : Shape := ⟨2, ![1024, 512]⟩
abbrev S64x512 : Shape := ⟨2, ![64, 512]⟩
abbrev S1024x64 : Shape := ⟨2, ![1024, 64]⟩
abbrev S32x64x512 : Shape := ⟨3, ![32, 64, 512]⟩
abbrev S32x64 : Shape := ⟨2, ![32, 64]⟩
abbrev S2048x512 : Shape := ⟨2, ![2048, 512]⟩
abbrev S1x1x512 : Shape := ⟨3, ![1, 1, 512]⟩
abbrev S64x1024 : Shape := ⟨2, ![64, 1024]⟩
abbrev S64 : Shape := ⟨1, ![64]⟩
abbrev S1x64 : Shape := ⟨2, ![1, 64]⟩

abbrev nBuf : Space → Nat
  | .hbm => 12
  | .vmem => 10
  | .smem => 0
  | _ => 0

abbrev bufTy : (tb : Table) → Fin (tcTables nBuf tb) → BufTy
  | .hbm, ⟨0, _⟩ => ⟨S1024x64x1024, .f32⟩
  | .hbm, ⟨1, _⟩ => ⟨S1x64x512, .f32⟩
  | .hbm, ⟨2, _⟩ => ⟨S512x1536, .f32⟩
  | .hbm, ⟨3, _⟩ => ⟨S1x512, .f32⟩
  | .hbm, ⟨4, _⟩ => ⟨S512x1024, .f32⟩
  | .hbm, ⟨5, _⟩ => ⟨S512x512, .f32⟩
  | .hbm, ⟨6, _⟩ => ⟨S1024x512, .f32⟩
  | .hbm, ⟨7, _⟩ => ⟨S64x512, .f32⟩
  | .hbm, ⟨8, _⟩ => ⟨S512x512, .f32⟩
  | .hbm, ⟨9, _⟩ => ⟨S64x512, .f32⟩
  | .hbm, ⟨10, _⟩ => ⟨S1024x64, .f32⟩
  | .hbm, ⟨11, _⟩ => ⟨S64x1024, .f32⟩
  | .local _ .vmem, ⟨0, _⟩ => ⟨S32x64x512, .f32⟩
  | .local _ .vmem, ⟨1, _⟩ => ⟨S32x64x512, .f32⟩
  | .local _ .vmem, ⟨2, _⟩ => ⟨S1024x512, .f32⟩
  | .local _ .vmem, ⟨3, _⟩ => ⟨S64x512, .f32⟩
  | .local _ .vmem, ⟨4, _⟩ => ⟨S1x512, .f32⟩
  | .local _ .vmem, ⟨5, _⟩ => ⟨S32x64, .f32⟩
  | .local _ .vmem, ⟨6, _⟩ => ⟨S32x64, .f32⟩
  | .local _ .vmem, ⟨7, _⟩ => ⟨S32x64x512, .f32⟩
  | .local _ .vmem, ⟨8, _⟩ => ⟨S1024x64, .f32⟩
  | .local _ .vmem, ⟨9, _⟩ => ⟨S64x1024, .f32⟩
  | _, _ => ⟨S1024x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_10 : BitVec 32 := 0#32
  let v21 : BitVec 1 := Scalar.cmpi .ne v20 c0_i32_10
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  slices_S512x1536_S512x1024_0_0 : S512x1536.Slices ![0, 0] S512x1024
  slices_S512x1536_S512x512_0_1024 : S512x1536.Slices ![0, 1024] S512x512
  transposes_S512x1024_S1024x512_1_0 : S512x1024.Transposes [1, 0] S1024x512
  shapeCasts_S1x64x512_S64x512 : S1x64x512.ShapeCasts S64x512
  transposes_S512x512_S512x512_1_0 : S512x512.Transposes [1, 0] S512x512
  inb_S32x64x512_S32x64x512_0_0_0 : ∀ a, (![0, 0, 0] : Fin 3 → Nat) a + S32x64x512.size a ≤ S32x64x512.size a
  h_S32x64x512 : 0 < S32x64x512.numel
  shapeCasts_S32x64x512_S32x64x512 : S32x64x512.ShapeCasts S32x64x512
  h_S512x512 : 0 < S512x512.numel
  shapeCasts_S512x512_S512x512 : S512x512.ShapeCasts S512x512
  bitsLt_bf16_f32 : FTy.bits .bf16 < FTy.bits .f32
  shapeCasts_S32x64x512_S2048x512 : S32x64x512.ShapeCasts S2048x512
  shapeCasts_S2048x512_S32x64x512 : S2048x512.ShapeCasts S32x64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S64x512_S1x64x512 : S64x512.ShapeCasts S1x64x512
  broadcasts_S1x64x512_S32x64x512 : S1x64x512.Broadcasts S32x64x512
  inb_S1x512_S1x512_0_0 : ∀ a, (![0, 0] : Fin 2 → Nat) a + S1x512.size a ≤ S1x512.size a
  h_S1x512 : 0 < S1x512.numel
  shapeCasts_S1x512_S1x1x512 : S1x512.ShapeCasts S1x1x512
  broadcasts_S1x1x512_S32x64x512 : S1x1x512.Broadcasts S32x64x512
  reduces_S32x64x512_S32x64 : S32x64x512.Reduces [2] S32x64
  inb_S32x64_S32x64_0_0 : ∀ a, (![0, 0] : Fin 2 → Nat) a + S32x64.size a ≤ S32x64.size a
  h_S32x64 : 0 < S32x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S64 : S1024x64.Reduces [0] S64
  shapeCasts_S64_S1x64 : S64.ShapeCasts S1x64
  broadcasts_S1x64_S1024x64 : S1x64.Broadcasts S1024x64
  transposes_S1024x64_p1_0_S64x1024 : S1024x64.Transposes [1, 0] S64x1024
  inb_S64x1024_S64x1024_0_0 : ∀ a, (![0, 0] : Fin 2 → Nat) a + S64x1024.size a ≤ S64x1024.size a
  h_S64x1024 : 0 < S64x1024.numel
  dot_S64x512_S512x512_S64x512_1_0_0_1_n_n_wf : DotDims.WF S64x512 S512x512 S64x512 [1] [0] [0] [1] [] []
  dot_S2048x512_S512x512_S2048x512_1_0_0_1_n_n_wf : DotDims.WF S2048x512 S512x512 S2048x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x512.size a ≤ S1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x512.size a ≤ S1024x64x1024.size a
  hwx0_0 : ∀ i : grid0.Coords, EltTy.bits .f32 = 32 ∨ (Rect.block (s := S1024x64x1024) S32x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S1024x64.size a
  hwx0_4 : ∀ i : grid0.Coords, EltTy.bits .f32 = 32 ∨ (Rect.block (s := S1024x64) S32x64.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S1024x64.size a
  hwx1_0 : ∀ i : grid1.Coords, EltTy.bits .f32 = 32 ∨ (Rect.block (s := S1024x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6) S1024x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x1024.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x64x1024 : Shape := ⟨3, ![1024, 64, 1024]⟩
abbrev S1x64x512 : Shape := ⟨3, ![1, 64, 512]⟩
abbrev S512x1536 : Shape := ⟨2, ![512, 1536]⟩
abbrev S1x512 : Shape := ⟨2, ![1, 512]⟩
abbrev S512x1024 : Shape := ⟨2, ![512, 1024]⟩
abbrev S512x512 : Shape := ⟨2, ![512, 512]⟩
abbrev S1024x64x512 : Shape := ⟨3, ![1024, 64, 512]⟩
abbrev S1024x64x1 : Shape := ⟨3, ![1024, 64, 1]⟩
abbrev S1024x64 : Shape := ⟨2, ![1024, 64]⟩
abbrev S64x1024 : Shape := ⟨2, ![64, 1024]⟩
abbrev S_ : Shape := ⟨0, ![]⟩
abbrev S64 : Shape := ⟨1, ![64]⟩
abbrev S64x1 : Shape := ⟨2, ![64, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x64x1024, .f32⟩
  | .hbm, ⟨1, _⟩ => ⟨S1x64x512, .f32⟩
  | .hbm, ⟨2, _⟩ => ⟨S512x1536, .f32⟩
  | .hbm, ⟨3, _⟩ => ⟨S1x512, .f32⟩
  | .hbm, ⟨4, _⟩ => ⟨S512x1024, .f32⟩
  | .hbm, ⟨5, _⟩ => ⟨S512x512, .f32⟩
  | .hbm, ⟨6, _⟩ => ⟨S1024x64x512, .f32⟩
  | .hbm, ⟨7, _⟩ => ⟨S1x64x512, .f32⟩
  | .hbm, ⟨8, _⟩ => ⟨S1024x64x512, .f32⟩
  | .hbm, ⟨9, _⟩ => ⟨S1024x64x512, .f32⟩
  | .hbm, ⟨10, _⟩ => ⟨S1024x64x512, .f32⟩
  | .hbm, ⟨11, _⟩ => ⟨S1024x64x1, .f32⟩
  | .hbm, ⟨12, _⟩ => ⟨S1024x64, .f32⟩
  | .hbm, ⟨13, _⟩ => ⟨S64x1024, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1024, .f32⟩
  | .hbm, ⟨27, _⟩ => ⟨S64x1024, .f32⟩
  | _, _ => ⟨S1024x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  slices_S512x1536_S512x1024_0_0 : S512x1536.Slices ![0, 0] S512x1024
  slices_S512x1536_S512x512_0_1024 : S512x1536.Slices ![0, 1024] S512x512
  bcast_S1x64x512_S1024x64x512_0_1_2 : S1x64x512.BroadcastsInDim S1024x64x512 (![0, 1, 2] : Fin 3 → Fin S1024x64x512.rank)
  shapeCasts_S1024x64x1_S1024x64 : S1024x64x1.ShapeCasts S1024x64
  transposes_S1024x64_S64x1024_1_0 : S1024x64.Transposes [1, 0] S64x1024
  reducesTo_S64x1024_S64_d1 : S64x1024.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  dot_S1024x64x1024_S512x1024_S1024x64x512_2_1_01_0_n_n_wf : DotDims.WF S1024x64x1024 S512x1024 S1024x64x512 [2] [1] [0, 1] [0] [] []
  dot_S1x64x512_S512x512_S1x64x512_2_1_01_0_n_n_wf : DotDims.WF S1x64x512 S512x512 S1x64x512 [2] [1] [0, 1] [0] [] []
  dot_S1024x64x512_S1x512_S1024x64x1_2_1_01_0_n_n_wf : DotDims.WF S1024x64x512 S1x512 S1024x64x1 [2] [1] [0, 1] [0] [] []

variable [Facts₀]

def dot_S1024x64x1024_S512x1024_S1024x64x512_2_1_01_0_n_n : DotDims S1024x64x1024 S512x1024 S1024x64x512 where
  lhsContracting := [2]
  rhsContracting := [1]
  lhsNonContracting := [0, 1]
  rhsNonContracting := [0]
  lhsBatch := []
  rhsBatch := []
  wf := dot_S1024x64x1024_S512x1024_S1024x64x512_2_1_01_0_n_n_wf
def dot_S1x64x512_S512x512_S1x64x512_2_1_01_0_n_n : DotDims S1x64x512 S512x512 S1x64x512 where
  lhsContracting := [2]
  rhsContracting := [1]
  lhsNonContracting := [0, 1]
  rhsNonContracting := [0]
  lhsBatch := []
  rhsBatch := []
  wf := dot_S1x64x512_S512x512_S1x64x512_2_1_01_0_n_n_wf
def dot_S1024x64x512_S1x512_S1024x64x1_2_1_01_0_n_n : DotDims S1024x64x512 S1x512 S1024x64x1 where
  lhsContracting := [2]
  rhsContracting := [1]
  lhsNonContracting := [0, 1]
  rhsNonContracting := [0]
  lhsBatch := []
  rhsBatch := []
  wf := dot_S1024x64x512_S1x512_S1024x64x1_2_1_01_0_n_n_wf

class Facts : Prop extends Facts₀ where

variable [Facts]
-- ==== Proof.KR1.lean ====
/- REGION 1 of @main (the second pallas_call, the softmax kernel, pipeline 1), at a parameter `V`: the TensorCore's
   buffer contents when the region is entered. The grid has one point; window 0 is the whole input array
   f32[1024,64] and window 1 the whole output array f32[64,1024]. The body reads window 0's buffer whole, reads its
   output buffer once (the value is not used) and stores the payload `Gen.k1_pay1` of what it read over the whole of
   window 1's buffer. So after the body the output buffer is a function of the input block alone (`out1_1`), the
   invariant is the class's (the scoped rest and the generator register, untouched) and nothing is owed. -/
import proofs.«123207_j19739669692939_2_alg».proof.Proof.Gen.Kernel.Launch
import proofs.«123207_j19739669692939_2_alg».proof.Proof.Gen.Kernel.Skeleton
import proofs.«123207_j19739669692939_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at the point, for any proof data whose array is `V`'s
    and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each buffer -/

abbrev r1_0 : Rect S1024x64 := Rect.unit (s := S1024x64) ![0, 0] S1024x64.size inb_S1024x64_S1024x64_0_0
abbrev r1_1 : Rect S64x1024 := Rect.unit (s := S64x1024) ![0, 0] S64x1024.size inb_S64x1024_S64x1024_0_0

/-! ## What the body leaves in the output window's buffer -/

/-- Window 1's staging buffer after the body, from the input window's block: its one store, of the payload of the
    whole input block, over the whole buffer. -/
def out1_1 (x0 : Vec F S1024x64 .f32) : Vec F S64x1024 .f32 :=
  View.canon [⟨r1_1, k1_pay1 (View.ld x0 r1_0)⟩]

/-- The one store is the whole buffer, so it covers it. -/
theorem cover1_1 (p0 : Vec F S64x1024 .f32) (y : S64x1024.Idx) :
    ∃ pc ∈ ([⟨r1_1, p0⟩] : List (View.Piece (Elt F) S64x1024 .f32)), y ∈ pc.1.set :=
  View.cover_of_tiled [⟨r1_1, p0⟩] S64x1024.size (by rfl) y

/-! ## The body's triple -/

set_option maxHeartbeats 1000000 in
/-- The kernel body on whole staging memrefs, the input's at read contents `x0` and the output's at anything, runs to
    the continuation holding the input's as it was and the output's at `out1_1 x0`: the load of the output buffer
    before the store reads whatever is there and its value goes nowhere. -/
theorem sound_kernel1 (c : Dev nD) (E : Set ℕ) (i : grid1.Coords) (arg0 : Memref sig .tc .vmem S1024x64 .f32) (harg0 : arg0.IsWhole) (arg1 : Memref sig .tc .vmem S64x1024 .f32) (harg1 : arg1.IsWhole)
    (x0 : Vec F S1024x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__softmax_kernel i arg0 harg0 arg1 harg1) K := by
  simp only [cc1__softmax_kernel_eq_skeleton]; unfold cc1__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body the input's
    buffer at its block and the output's at `out1_1` of the input block; the invariant the class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at the point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's memref holds its block, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.KR0Runs.lean ====
/- The first pallas_call of the program (grid 32 x 2, 64 points), its frame half: what the per-case runs of the
   kernel body share. The body keeps an accumulator in a scratch buffer between grid points: where the second grid
   coordinate is 0 it zeroes the accumulator and adds a matrix product; where it is 1 it adds a second product and
   stores the output block computed from the accumulator. Here: each window's block at a point, the two branch
   conditions in closed form over the grid, where the output window is idle, the staging and scratch memrefs, and
   the region invariant with the scratch named. -/
import proofs.«123207_j19739669692939_2_alg».proof.Proof.Gen.Kernel.Launch
import proofs.«123207_j19739669692939_2_alg».proof.Proof.Gen.Kernel.Skeleton
import proofs.«123207_j19739669692939_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not the point
    fetches it (where it does not, the block index has not moved since the point before), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the point
    fetches it (where it does not, the block index has not moved since the point before), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the point
    fetches it (where it does not, the block index has not moved since the point before), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether or not the point
    fetches it (where it does not, the block index has not moved since the point before), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition: the second coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the even points (case A) the output window is idle: the body stores nothing into it there, -/
theorem idleAt0_4_A : ∀ t : Fin cfg0.N, cond0_0 (grid0.coords t) → ¬cond0_1 (grid0.coords t) → cfg0.idle 4 (grid0.coords t) = true := by decide +kernel
/-- and its block is not written back there. -/
theorem noFlush0_4_A : ∀ t : Fin cfg0.N, cond0_0 (grid0.coords t) → ¬cond0_1 (grid0.coords t) → (cfg0.win 4).flush t = false := by decide +kernel
/-- At the odd points (case B) the output window is live: the body stores its whole block. -/
theorem liveAt0_4_B : ∀ t : Fin cfg0.N, ¬cond0_0 (grid0.coords t) → cond0_1 (grid0.coords t) → cfg0.idle 4 (grid0.coords t) = false := by decide +kernel

/-! ## The staging and scratch memrefs -/

/-- One staging buffer of the output window, through which its contents are stated (which one does not matter). -/
abbrev VO0_4 : View sig .tc .vmem S32x64 .f32 := (Memref.whole cc0_stg4_0 : Memref sig .tc .vmem S32x64 .f32).view
/-- Each window's current staging memref at point `t`, and that it is a whole buffer. -/
abbrev ms0_0 (t : Fin cfg0.N) : Memref sig .tc .vmem S32x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x64 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S32x64x512 .f32 := Memref.whole cc0_scratch0
/-- The accumulator the kernel carries between points, as a view: what it holds is stated through it. -/
abbrev VS0_0 : View sig .tc .vmem S32x64x512 .f32 := scM0_0.view

/-- The two staging buffers of the second pallas_call: scoped buffers this region neither stages nor touches, each
    whole at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The region invariant of the class with the scratch operand as a memref owned at some contents, the other scoped
    buffers beside it and the generator register at some state: what the body is handed and gives back. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA; rw [scopedRest0_eq]; simp only [scM0_0, owns_whole]; try rfl

end Cert.Kernel.Fr

end
-- ==== Proof.KR0RunA.lean ====
/- Case A of the first pallas_call's body (the even points: the accumulator is zeroed, then the first matrix product
   is added; nothing is stored into the output block): the body's triple on whole memrefs, with the pieces its stores
   leave in the accumulator as the witness. -/
import proofs.«123207_j19739669692939_2_alg».proof.Proof.KR0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

set_option maxHeartbeats 1000000 in
/-- What the body's stores leave, as pieces (last first), IN CASE A (first conditional taken, second not), WITH the proof
    that on whole memrefs — the four inputs' at their contents, the output's at contents `xi4` handed back untouched
    (nothing is stored there), the accumulator at anything (it is stored whole before its contents are used) — the
    body runs to the continuation holding the inputs' and the output's as they were and the accumulator with its
    pieces written. Each conditional is decided by the case's hypotheses; the pieces are found by the run. -/
noncomputable def kernelRun0_A (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) :
    Σ' (L4 : List (View.Piece (Elt F) S32x64 .f32)), { LS0 : List (View.Piece (Elt F) S32x64x512 .f32) //
      ∀ (xi4 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_main_kernel i arg2 harg2 arg3 harg3 arg4 harg4 arg5 harg5 arg6 harg6 arg7 harg7) K } := by
  refine ⟨[], ?_, fun xi4 E K => ?run⟩
  case run =>
    simp only [cc0__attn_main_kernel_eq_skeleton]; unfold cc0__attn_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.KR0RunB.lean ====
/- Case B of the first pallas_call's body (the odd points: the second matrix product is added to the accumulator, then
   the output block is computed from the accumulator and two of the inputs and stored whole): the body's triple on
   whole memrefs, with the pieces its stores leave in the output block and in the accumulator as the witness. -/
import proofs.«123207_j19739669692939_2_alg».proof.Proof.KR0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

set_option maxHeartbeats 1000000 in
/-- What the body's stores leave, as pieces (last first), IN CASE B (first conditional not taken, second taken), WITH the
    proof that on whole memrefs — the four inputs' at their contents, the output's at anything (it is stored whole),
    the accumulator at the contents `xs0` the point before left — the body runs to the continuation holding the
    inputs' as they were, the output's with its pieces written and the accumulator with its pieces written. -/
noncomputable def kernelRun0_B (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) :
    Σ' (L4 : List (View.Piece (Elt F) S32x64 .f32)), { LS0 : List (View.Piece (Elt F) S32x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__attn_main_kernel i arg2 harg2 arg3 harg3 arg4 harg4 arg5 harg5 arg6 harg6 arg7 harg7) K } := by
  refine ⟨?_, ?_, fun E K => ?run⟩
  case run =>
    simp only [cc0__attn_main_kernel_eq_skeleton]; unfold cc0__attn_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.KR0Frame.lean ====
/- The first pallas_call of the program, its frame half, last part: what each case of the body leaves in the output
   block and in the accumulator, what both hold point by point along the grid, the pipeline's proof data at the
   region's entry contents, the body obligation at every point, and that the region invariant is the class's at the
   first point and gives it back after the last. -/
import proofs.«123207_j19739669692939_2_alg».proof.Proof.KR0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

/-! ## What each case leaves -/

/-- Case A stores nothing into the output block (the window is idle at its points and not written back there): no
    pieces — a placeholder that nothing consults. -/
def out0_A_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) : Vec F S32x64 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (each of its two stores is the whole buffer). -/
theorem scover0_A_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) (y : S32x64x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S32x64x512.size (by sl_kernel_rfl) y

/-- What case A leaves in the accumulator: its pieces read back. -/
def sout0_A_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) : Vec F S32x64x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B's one store into the output block is the whole block, so its pieces cover it. -/
theorem cover0_B_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) (y : S32x64.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S32x64.size (by sl_kernel_rfl) y

/-- What case B leaves in the output block: its pieces read back. -/
def out0_B_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) : Vec F S32x64 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (its store is the whole buffer). -/
theorem scover0_B_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) (y : S32x64x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S32x64x512.size (by sl_kernel_rfl) y

/-- What case B leaves in the accumulator: its pieces read back. -/
def sout0_B_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) : Vec F S32x64x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-! ## What the output block and the accumulator hold after each point -/

/-- THE ACCUMULATION. What the output window's staging buffer and the accumulator hold after the body at position `n`:
    the case the point's parity selects, run at the point's memrefs and input blocks; at an odd point over what the
    even point before it left in the accumulator. The two other assignments of the conditions meet no point. -/
def outsAt0 (c : Dev nD) : (n : ℕ) → n < cfg0.N → Vec F S32x64 .f32 × Vec F S32x64x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 2 = 0 then
      if h1 : (n + 1) % 2 = 1 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 2 = 1 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        False.elim (by omega)

/-- `outsAt0` at an even point: case A's contents. -/
theorem outsAt0_A (c : Dev nD) (t : Fin cfg0.N) (h0 : t.val % 2 = 0) (h1 : ¬t.val % 2 = 1) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at an odd point: case B's contents, over what the point before left in the accumulator. -/
theorem outsAt0_B (c : Dev nD) (t : Fin cfg0.N) (h0 : ¬t.val % 2 = 0) (h1 : t.val % 2 = 1) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything);
    afterwards the accumulator at what the point before left in it, the other scoped buffers at some contents and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ restS0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of the first pipeline on core `c`: the arrays as the region finds them; after the body at point
    `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in, so
    that case's run applies; the invariant hands the body the accumulator at what the point before left (at anything
    at the first point) and takes it back at this point's contents; the other scoped buffers, the generator register
    and what the core owes pass through untouched. At an even point the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_B_4 c _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Fr

end
-- ==== Proof.KRun.lean ====
/- THE RUN of @main: a stretch of host operations, then the two kernel regions, nothing after. The buffer contents
   at each boundary are a fold from the launch memory: a stretch's `StableHlo.after`; a region's arrays at what its
   write-backs leave and every other buffer as entered. Each region is a segment over the thread state "every unscoped
   buffer at the boundary's contents, the generator register at some state, nothing owed". The run's post names every
   unscoped buffer's final contents (`run_all`: the last fold `W3`), from which each argument array is read back to
   its launch contents (`frame`). All at any `F`. -/
import proofs.«123207_j19739669692939_2_alg».proof.Proof.KR1
import proofs.«123207_j19739669692939_2_alg».proof.Proof.KR0Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit (region 1's entry): its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of @main): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the fold at an argument's buffer walks back to the launch memory -/

/-- `main_arg0` is window 0's array of region 0, an input: the region leaves it as entered, region 1 does not
    touch it, no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` is no window's array in either region (the host operations read it): neither region touches it
    and no host operation writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` is no window's array in either region (the host operations read it): neither region touches it
    and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is window 3's array of region 0, an input: the region leaves it as entered, region 1 does not
    touch it, no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents (a literal `match` on the pipeline index). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out of
    the unscoped buffers and put back at the exit contents. Its invariant moves with the point (the kernel carries a
    scratch between points): at the first point it is the class's (`hin0`), which takes the generator register in,
    and at the last it gives the class's back (`hout0`). Nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant at the first point is made from the class's
    have h0 : Pipeline.ΦA spec0 c ⊢ (pdats m ρ 0 c).Φ 0 := hin0 (V1 m ρ) c
    unfold Pipeline.ΦA at h0
    iintro ⟨Hp, -, Hr⟩
    iapply h0
    isplitl [Hr]; · iexact Hr
    iexact Hp
  hout c := by
    -- the invariant at the last point gives the class's back
    have h0 : (pdats m ρ 0 c).Φ (Fin.last _) ⊢ Pipeline.ΦA spec0 c := hout0 (V1 m ρ) c
    unfold Pipeline.ΦA at h0
    rw [Pipeline.ownSems0_none]
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). Its invariant is the class's at every point. Nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN, at any post that follows from the final contents: at the compiled mesh, from any memory with zero
    counters, every weakly fair execution of @main on the TensorCores terminates, nothing faulting, and every final
    state satisfies `Q`, given that `Q` holds of any memory in which each unscoped buffer of each core holds the last
    fold's contents `W3`. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE RUN with every unscoped buffer's final contents named: in every final state each unscoped buffer of each core
    holds the last fold's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  run_post m ρ fun s h => h

/-- THE FRAME: every final state has the four argument arrays as launched, each read off the run's post through the
    fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩

end Cert.Kernel.Fr

end
-- ==== Proof.KiR1.lean ====
/- REGION 1 of @main (the second pallas_call, the softmax kernel, pipeline 1), at a parameter `V`: the TensorCore's
   buffer contents when the region is entered. The grid has one point; window 0 is the whole input array
   f32[1024,64] and window 1 the whole output array f32[64,1024]. The body reads window 0's buffer whole, reads its
   output buffer once (the value is not used) and stores the payload `Gen.k1_pay1` of what it read over the whole of
   window 1's buffer. So after the body the output buffer is a function of the input block alone (`out1_1`), the
   invariant is the class's (the scoped rest and the generator register, untouched) and nothing is owed. -/
import proofs.«123207_j19739669692939_2_alg».proof.Proof.Gen.KernelIdeal.Launch
import proofs.«123207_j19739669692939_2_alg».proof.Proof.Gen.KernelIdeal.Skeleton
import proofs.«123207_j19739669692939_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at the point, for any proof data whose array is `V`'s
    and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the whole of each buffer -/

abbrev r1_0 : Rect S1024x64 := Rect.unit (s := S1024x64) ![0, 0] S1024x64.size inb_S1024x64_S1024x64_0_0
abbrev r1_1 : Rect S64x1024 := Rect.unit (s := S64x1024) ![0, 0] S64x1024.size inb_S64x1024_S64x1024_0_0

/-! ## What the body leaves in the output window's buffer -/

/-- Window 1's staging buffer after the body, from the input window's block: its one store, of the payload of the
    whole input block, over the whole buffer. -/
def out1_1 (x0 : Vec F S1024x64 .f32) : Vec F S64x1024 .f32 :=
  View.canon [⟨r1_1, k1_pay1 (View.ld x0 r1_0)⟩]

/-- The one store is the whole buffer, so it covers it. -/
theorem cover1_1 (p0 : Vec F S64x1024 .f32) (y : S64x1024.Idx) :
    ∃ pc ∈ ([⟨r1_1, p0⟩] : List (View.Piece (Elt F) S64x1024 .f32)), y ∈ pc.1.set :=
  View.cover_of_tiled [⟨r1_1, p0⟩] S64x1024.size (by rfl) y

/-! ## The body's triple -/

set_option maxHeartbeats 1000000 in
/-- The kernel body on whole staging memrefs, the input's at read contents `x0` and the output's at anything, runs to
    the continuation holding the input's as it was and the output's at `out1_1 x0`: the load of the output buffer
    before the store reads whatever is there and its value goes nowhere. -/
theorem sound_kernel1 (c : Dev nD) (E : Set ℕ) (i : grid1.Coords) (arg0 : Memref sig .tc .vmem S1024x64 .f32) (harg0 : arg0.IsWhole) (arg1 : Memref sig .tc .vmem S64x1024 .f32) (harg1 : arg1.IsWhole)
    (x0 : Vec F S1024x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__softmax_kernel i arg0 harg0 arg1 harg1) K := by
  simp only [cc1__softmax_kernel_eq_skeleton]; unfold cc1__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body the input's
    buffer at its block and the output's at `out1_1` of the input block; the invariant the class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at the point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at the point: the input's memref holds its block, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KiR0Runs.lean ====
/- The first pallas_call of the program (grid 32 x 2, 64 points), its frame half: what the per-case runs of the
   kernel body share. The body keeps an accumulator in a scratch buffer between grid points: where the second grid
   coordinate is 0 it zeroes the accumulator and adds a matrix product; where it is 1 it adds a second product and
   stores the output block computed from the accumulator. Here: each window's block at a point, the two branch
   conditions in closed form over the grid, where the output window is idle, the staging and scratch memrefs, and
   the region invariant with the scratch named. -/
import proofs.«123207_j19739669692939_2_alg».proof.Proof.Gen.KernelIdeal.Launch
import proofs.«123207_j19739669692939_2_alg».proof.Proof.Gen.KernelIdeal.Skeleton
import proofs.«123207_j19739669692939_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, whether or not the point
    fetches it (where it does not, the block index has not moved since the point before), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the point
    fetches it (where it does not, the block index has not moved since the point before), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the point
    fetches it (where it does not, the block index has not moved since the point before), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, whether or not the point
    fetches it (where it does not, the block index has not moved since the point before), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional's condition, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition: the second coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

/-- The four input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the even points (case A) the output window is idle: the body stores nothing into it there, -/
theorem idleAt0_4_A : ∀ t : Fin cfg0.N, cond0_0 (grid0.coords t) → ¬cond0_1 (grid0.coords t) → cfg0.idle 4 (grid0.coords t) = true := by decide +kernel
/-- and its block is not written back there. -/
theorem noFlush0_4_A : ∀ t : Fin cfg0.N, cond0_0 (grid0.coords t) → ¬cond0_1 (grid0.coords t) → (cfg0.win 4).flush t = false := by decide +kernel
/-- At the odd points (case B) the output window is live: the body stores its whole block. -/
theorem liveAt0_4_B : ∀ t : Fin cfg0.N, ¬cond0_0 (grid0.coords t) → cond0_1 (grid0.coords t) → cfg0.idle 4 (grid0.coords t) = false := by decide +kernel

/-! ## The staging and scratch memrefs -/

/-- One staging buffer of the output window, through which its contents are stated (which one does not matter). -/
abbrev VO0_4 : View sig .tc .vmem S32x64 .f32 := (Memref.whole cc0_stg4_0 : Memref sig .tc .vmem S32x64 .f32).view
/-- Each window's current staging memref at point `t`, and that it is a whole buffer. -/
abbrev ms0_0 (t : Fin cfg0.N) : Memref sig .tc .vmem S32x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x64 .f32 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S32x64x512 .f32 := Memref.whole cc0_scratch0
/-- The accumulator the kernel carries between points, as a view: what it holds is stated through it. -/
abbrev VS0_0 : View sig .tc .vmem S32x64x512 .f32 := scM0_0.view

/-- The two staging buffers of the second pallas_call: scoped buffers this region neither stages nor touches, each
    whole at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The region invariant of the class with the scratch operand as a memref owned at some contents, the other scoped
    buffers beside it and the generator register at some state: what the body is handed and gives back. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA; rw [scopedRest0_eq]; simp only [scM0_0, owns_whole]; try rfl

end Cert.KernelIdeal.Fr

end
-- ==== Proof.KiR0RunA.lean ====
/- Case A of the first pallas_call's body (the even points: the accumulator is zeroed, then the first matrix product
   is added; nothing is stored into the output block): the body's triple on whole memrefs, with the pieces its stores
   leave in the accumulator as the witness. -/
import proofs.«123207_j19739669692939_2_alg».proof.Proof.KiR0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

set_option maxHeartbeats 1000000 in
/-- What the body's stores leave, as pieces (last first), IN CASE A (first conditional taken, second not), WITH the proof
    that on whole memrefs — the four inputs' at their contents, the output's at contents `xi4` handed back untouched
    (nothing is stored there), the accumulator at anything (it is stored whole before its contents are used) — the
    body runs to the continuation holding the inputs' and the output's as they were and the accumulator with its
    pieces written. Each conditional is decided by the case's hypotheses; the pieces are found by the run. -/
noncomputable def kernelRun0_A (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) :
    Σ' (L4 : List (View.Piece (Elt F) S32x64 .f32)), { LS0 : List (View.Piece (Elt F) S32x64x512 .f32) //
      ∀ (xi4 : Vec F S32x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_main_kernel i arg2 harg2 arg3 harg3 arg4 harg4 arg5 harg5 arg6 harg6 arg7 harg7) K } := by
  refine ⟨[], ?_, fun xi4 E K => ?run⟩
  case run =>
    simp only [cc0__attn_main_kernel_eq_skeleton]; unfold cc0__attn_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KiR0RunB.lean ====
/- Case B of the first pallas_call's body (the odd points: the second matrix product is added to the accumulator, then
   the output block is computed from the accumulator and two of the inputs and stored whole): the body's triple on
   whole memrefs, with the pieces its stores leave in the output block and in the accumulator as the witness. -/
import proofs.«123207_j19739669692939_2_alg».proof.Proof.KiR0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

set_option maxHeartbeats 1000000 in
/-- What the body's stores leave, as pieces (last first), IN CASE B (first conditional not taken, second taken), WITH the
    proof that on whole memrefs — the four inputs' at their contents, the output's at anything (it is stored whole),
    the accumulator at the contents `xs0` the point before left — the body runs to the continuation holding the
    inputs' as they were, the output's with its pieces written and the accumulator with its pieces written. -/
noncomputable def kernelRun0_B (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) :
    Σ' (L4 : List (View.Piece (Elt F) S32x64 .f32)), { LS0 : List (View.Piece (Elt F) S32x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__attn_main_kernel i arg2 harg2 arg3 harg3 arg4 harg4 arg5 harg5 arg6 harg6 arg7 harg7) K } := by
  refine ⟨?_, ?_, fun E K => ?run⟩
  case run =>
    simp only [cc0__attn_main_kernel_eq_skeleton]; unfold cc0__attn_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KiR0Frame.lean ====
/- The first pallas_call of the program, its frame half, last part: what each case of the body leaves in the output
   block and in the accumulator, what both hold point by point along the grid, the pipeline's proof data at the
   region's entry contents, the body obligation at every point, and that the region invariant is the class's at the
   first point and gives it back after the last. -/
import proofs.«123207_j19739669692939_2_alg».proof.Proof.KiR0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

/-! ## What each case leaves -/

/-- Case A stores nothing into the output block (the window is idle at its points and not written back there): no
    pieces — a placeholder that nothing consults. -/
def out0_A_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) : Vec F S32x64 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (each of its two stores is the whole buffer). -/
theorem scover0_A_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) (y : S32x64x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S32x64x512.size (by sl_kernel_rfl) y

/-- What case A leaves in the accumulator: its pieces read back. -/
def sout0_A_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) : Vec F S32x64x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B's one store into the output block is the whole block, so its pieces cover it. -/
theorem cover0_B_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) (y : S32x64.Idx) :
    ∃ pc ∈ (kernelRun0_B c i arg2 harg2 arg3 harg3 arg4 harg4 arg5 harg5 arg6 harg6 arg7 harg7 hc0 hc1 x0 x1 x2 x3 xs0).1, y ∈ pc.1.set :=
  View.cover_of_tiledL (kernelRun0_B c i arg2 harg2 arg3 harg3 arg4 harg4 arg5 harg5 arg6 harg6 arg7 harg7 hc0 hc1 x0 x1 x2 x3 xs0).1 S32x64.size (by sl_kernel_rfl) y

/-- What case B leaves in the output block: its pieces read back. -/
def out0_B_4 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) : Vec F S32x64 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (its store is the whole buffer). -/
theorem scover0_B_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) (y : S32x64x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S32x64x512.size (by sl_kernel_rfl) y

/-- What case B leaves in the accumulator: its pieces read back. -/
def sout0_B_0 (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) : Vec F S32x64x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-! ## What the output block and the accumulator hold after each point -/

/-- THE ACCUMULATION. What the output window's staging buffer and the accumulator hold after the body at position `n`:
    the case the point's parity selects, run at the point's memrefs and input blocks; at an odd point over what the
    even point before it left in the accumulator. The two other assignments of the conditions meet no point. -/
def outsAt0 (c : Dev nD) : (n : ℕ) → n < cfg0.N → Vec F S32x64 .f32 × Vec F S32x64x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 2 = 0 then
      if h1 : (n + 1) % 2 = 1 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 2 = 1 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        False.elim (by omega)

/-- `outsAt0` at an even point: case A's contents. -/
theorem outsAt0_A (c : Dev nD) (t : Fin cfg0.N) (h0 : t.val % 2 = 0) (h1 : ¬t.val % 2 = 1) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at an odd point: case B's contents, over what the point before left in the accumulator. -/
theorem outsAt0_B (c : Dev nD) (t : Fin cfg0.N) (h0 : ¬t.val % 2 = 0) (h1 : t.val % 2 = 1) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the scratch at anything);
    afterwards the accumulator at what the point before left in it, the other scoped buffers at some contents and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ restS0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of the first pipeline on core `c`: the arrays as the region finds them; after the body at point
    `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the point's parity says which case it is in, so
    that case's run applies; the invariant hands the body the accumulator at what the point before left (at anything
    at the first point) and takes it back at this point's contents; the other scoped buffers, the generator register
    and what the core owes pass through untouched. At an even point the output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 2 = 0
  · by_cases h1 : t.val % 2 = 1
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 2 = 1
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_B t (fun h => h0 ((hcond0_0 t).mp h)) ((hcond0_1 t).mpr h1)], after0_4]
      rw [outsAt0_B V c t h0 h1]
      unfold out0_B_4 sout0_B_0; (try dsimp only)
      by_cases hz : t.val = 0
      · exfalso; omega
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_B_4 c _ _ _ _ _ _ _ _ _ _ _ _ _ _ _ _ _ _ _ _)
    · exfalso; omega

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Fr

end
-- ==== Proof.KiRun.lean ====
/- THE RUN of @main: a stretch of host operations, then the two kernel regions, nothing after. The buffer contents
   at each boundary are a fold from the launch memory: a stretch's `StableHlo.after`; a region's arrays at what its
   write-backs leave and every other buffer as entered. Each region is a segment over the thread state "every unscoped
   buffer at the boundary's contents, the generator register at some state, nothing owed". The run's post names every
   unscoped buffer's final contents (`run_all`: the last fold `W3`), from which each argument array is read back to
   its launch contents (`frame`). All at any `F`. -/
import proofs.«123207_j19739669692939_2_alg».proof.Proof.KiR1
import proofs.«123207_j19739669692939_2_alg».proof.Proof.KiR0Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit (region 1's entry): its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, region 1's entry contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the end of @main): its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: the fold at an argument's buffer walks back to the launch memory -/

/-- `main_arg0` is window 0's array of region 0, an input: the region leaves it as entered, region 1 does not
    touch it, no host operation writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` is no window's array in either region (the host operations read it): neither region touches it
    and no host operation writes it. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` is no window's array in either region (the host operations read it): neither region touches it
    and no host operation writes it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- `main_arg3` is window 3's array of region 0, an input: the region leaves it as entered, region 1 does not
    touch it, no host operation writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents (a literal `match` on the pipeline index). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W3`, the generator
    register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays split out of
    the unscoped buffers and put back at the exit contents. Its invariant moves with the point (the kernel carries a
    scratch between points): at the first point it is the class's (`hin0`), which takes the generator register in,
    and at the last it gives the class's back (`hout0`). Nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant at the first point is made from the class's
    have h0 : Pipeline.ΦA spec0 c ⊢ (pdats m ρ 0 c).Φ 0 := hin0 (V1 m ρ) c
    unfold Pipeline.ΦA at h0
    iintro ⟨Hp, -, Hr⟩
    iapply h0
    isplitl [Hr]; · iexact Hr
    iexact Hp
  hout c := by
    -- the invariant at the last point gives the class's back
    have h0 : (pdats m ρ 0 c).Φ (Fin.last _) ⊢ Pipeline.ΦA spec0 c := hout0 (V1 m ρ) c
    unfold Pipeline.ΦA at h0
    rw [Pipeline.ownSems0_none]
    iintro H
    ihave H' := h0 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3` (what the launch reads at
    the end). Its invariant is the class's at every point. Nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN, at any post that follows from the final contents: at the compiled mesh, from any memory with zero
    counters, every weakly fair execution of @main on the TensorCores terminates, nothing faulting, and every final
    state satisfies `Q`, given that `Q` holds of any memory in which each unscoped buffer of each core holds the last
    fold's contents `W3`. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- THE RUN with every unscoped buffer's final contents named: in every final state each unscoped buffer of each core
    holds the last fold's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  run_post m ρ fun s h => h

/-- THE FRAME: every final state has the four argument arrays as launched, each read off the run's post through the
    fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩

end Cert.KernelIdeal.Fr

end
-- ==== Proof.KiR0Pieces.lean ====
/- The first pallas_call's body, case by case, in terms of the arithmetic it performs: what each case leaves in the
   accumulator and in the output block, as the payloads of its stores applied to the input blocks. Writing P for the
   512 x 512 block of the second input at the row offset the second grid coordinate selects: an even point leaves the
   accumulator at (zero + x0 · P); an odd point leaves it at (previous + x0 · P) and stores the output block computed
   from that sum and the third and fourth inputs. -/
import proofs.«123207_j19739669692939_2_alg».proof.Proof.KiR0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the first region is entered: everything below is stated at this parameter
variable (V : (c : Dev nD) → (b : Ref sig .tc) → Buf (Elt F) ((c : Thread nD τ).loc b))

/-- Case A leaves in the accumulator the first product added to the zero fill: the last store's payload, whose third
    argument is the zero fill read back. -/
theorem sout0_A_eq (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : cond0_0 i) (hc1 : ¬cond0_1 i)
    (x0 : Vec F S32x64x512 .f32) (x1 : Vec F S1024x512 .f32) (x2 : Vec F S64x512 .f32) (x3 : Vec F S1x512 .f32) :
    sout0_A_0 c i arg2 harg2 arg3 harg3 arg4 harg4 arg5 harg5 arg6 harg6 arg7 harg7 hc0 hc1 x0 x1 x2 x3 = k0_pay2 (View.ld x1 (Rect.unit (s := S1024x512) (k0_off1 i) S512x512.size (k0_off1_inb i))) x0 (k0_pay1 (F := F)) := by
  have hz : (![0, 0, 0] : Fin 3 → Nat) = fun _ => 0 := by funext a; fin_cases a <;> rfl
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero hz, View.readCov_unit_zero _ hz]
  simp only [View.readAt_eq_ld, harg2.read_unread, harg3.read_unread, View.ld_unit_zero (S := S32x64x512) hz]

/-- Case B leaves in the accumulator the second product added to what the point before left. -/
theorem sout0_B_eq (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) :
    sout0_B_0 c i arg2 harg2 arg3 harg3 arg4 harg4 arg5 harg5 arg6 harg6 arg7 harg7 hc0 hc1 x0 x1 x2 x3 xs0 = k0_pay2 (View.ld x1 (Rect.unit (s := S1024x512) (k0_off1 i) S512x512.size (k0_off1_inb i))) x0 xs0 := by
  have hz : (![0, 0, 0] : Fin 3 → Nat) = fun _ => 0 := by funext a; fin_cases a <;> rfl
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_cons_unit_zero hz]
  simp only [View.readAt_eq_ld, harg2.read_unread, harg3.read_unread, harg7.read_unread, View.ld_unit_zero (S := S32x64x512) hz]

/-- Case B stores into the output block the reduction computed from the accumulator it has just written and the third
    and fourth inputs. -/
theorem out0_B_eq (c : Dev nD) (i : grid0.Coords) (arg2 : Memref sig .tc .vmem S32x64x512 .f32) (harg2 : arg2.IsWhole) (arg3 : Memref sig .tc .vmem S1024x512 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S32x64 .f32) (harg6 : arg6.IsWhole) (arg7 : Memref sig .tc .vmem S32x64x512 .f32) (harg7 : arg7.IsWhole) (hc0 : ¬cond0_0 i) (hc1 : cond0_1 i)
    (x0 : Vec F S32x64x512 .f32) (x1 : Vec F S1024x512 .f32) (x2 : Vec F S64x512 .f32) (x3 : Vec F S1x512 .f32) (xs0 : Vec F S32x64x512 .f32) :
    out0_B_4 c i arg2 harg2 arg3 harg3 arg4 harg4 arg5 harg5 arg6 harg6 arg7 harg7 hc0 hc1 x0 x1 x2 x3 xs0 = k0_pay3 (k0_pay2 (View.ld x1 (Rect.unit (s := S1024x512) (k0_off1 i) S512x512.size (k0_off1_inb i))) x0 xs0) x2 x3 := by
  have hz : (![0, 0, 0] : Fin 3 → Nat) = fun _ => 0 := by funext a; fin_cases a <;> rfl
  have hz2 : (![0, 0] : Fin 2 → Nat) = fun _ => 0 := by funext a; fin_cases a <;> rfl
  unfold out0_B_4
  rw [View.read_writes_eq_canon _ _ _ (cover0_B_4 c i arg2 harg2 arg3 harg3 arg4 harg4 arg5 harg5 arg6 harg6 arg7 harg7 hc0 hc1 x0 x1 x2 x3 xs0)]
  unfold kernelRun0_B
  dsimp only
  sl_unfold_words
  rw [View.canon_cons_unit_zero hz2, View.readCov_unit_zero _ hz]
  simp only [View.readAt_eq_ld, harg2.read_unread, harg3.read_unread, harg4.read_unread, harg5.read_unread, harg7.read_unread,
    View.ld_unit_zero (S := S32x64x512) hz, View.ld_unit_zero (S := S64x512) hz2, View.ld_unit_zero (S := S1x512) hz2]

end Cert.KernelIdeal.Fr

end
-- ==== Proof.KiBlocks.lean ====
/-
  Where each window's block sits in its array, at a point `t` of the first region's 32 × 2 grid (`t = 2·li + ci`).

  The encoder block at `t` is rows `32·li … 32·li + 31` and columns `512·ci … 512·ci + 511` of the encoder output;
  the resident weight, the decoder term and the scoring vector are whole arrays at every point, and the body reads the
  weight's rows `512·ci … 512·ci + 511`; the output block is rows `32·li … 32·li + 31` of the score array.
-/
import proofs.«123207_j19739669692939_2_alg».proof.Proof.KiR0Runs
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx

variable {F : FTy → Type} [FloatOps F]
variable (V : (c : Dev nD) → (b : Ref sig .tc) → Buf (Elt F) ((c : Thread nD τ).loc b))

/-- The printed index maps in closed form, decided over the 64 points. -/
theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 2 ∧ win0_4.index t (1 : Fin 2) = 0
    ∧ (grid0.coords t 1).val = t.val % 2 :=
  (by decide +kernel : ∀ t : Fin grid0.N, _)

/-- Row `32·li + p` of the 1024 rows. -/
def rowOf (t : Fin cfg0.N) (p : Fin 32) : Fin 1024 :=
  ⟨32 * (t.val / 2) + p.val, by have := t.isLt; have hN : cfg0.N = 64 := N_0; have := p.isLt; omega⟩
/-- Column `512·ci + k` of the 1024 contracted columns. -/
def colOf (t : Fin cfg0.N) (k : Fin 512) : Fin 1024 :=
  ⟨512 * (t.val % 2) + k.val, by have := k.isLt; omega⟩

/-- The encoder block at `t`, entry `(p, b, k)`. -/
theorem blk0_apply (c : Dev nD) (t : Fin cfg0.N) (p : Fin 32) (b : Fin 64) (k : Fin 512) :
    (iblk0 V c 0 t : Vec F S32x64x512 .f32) (ix3 p b k) = V c main_arg0 (ix3 (rowOf t p) b (colOf t k)) := by
  obtain ⟨e0, e1, e2, -⟩ := idx_facts t
  unfold iblk0
  show V c main_arg0 (((cfg0.win 0).blk t).view.emb (ix3 p b k)) = _
  refine congrArg (V c main_arg0) ?_
  funext a; apply Fin.ext
  match a with
  | ⟨0, _⟩ => show win0_0.index t (0 : Fin 3) * 32 + 1 * p.val = 32 * (t.val / 2) + p.val; rw [e0]; omega
  | ⟨1, _⟩ => show win0_0.index t (1 : Fin 3) * 64 + 1 * b.val = b.val; rw [e1]; omega
  | ⟨2, _⟩ => show win0_0.index t (2 : Fin 3) * 512 + 1 * k.val = 512 * (t.val % 2) + k.val; rw [e2]; omega

/-- The rows of the resident weight the body loads at `t`: entry `(k, e)` of the loaded 512 × 512 block is entry
    `(512·ci + k, e)` of the weight (the window's block is the whole array; the load's row offset is `512·ci`). -/
theorem wblk_apply (c : Dev nD) (t : Fin cfg0.N) (k : Fin 512) (e : Fin 512) :
    View.ld (iblk0 V c 1 t : Vec F S1024x512 .f32)
        (Rect.unit (s := S1024x512) (k0_off1 (grid0.coords t)) S512x512.size (k0_off1_inb (grid0.coords t))) (ix2 k e)
      = V c main_v2 (ix2 (colOf t k) e) := by
  obtain ⟨-, -, -, e3, e4, -, -, -, -, -, -, e11⟩ := idx_facts t
  have ho : k0_off1 (grid0.coords t) = ![512 * (grid0.coords t 1).val, 0] := k0_off1_eq _
  unfold iblk0
  show V c main_v2 (((cfg0.win 1).blk t).view.emb
    ((Rect.unit (s := S1024x512) (k0_off1 (grid0.coords t)) S512x512.size (k0_off1_inb (grid0.coords t))).emb (ix2 k e))) = _
  refine congrArg (V c main_v2) ?_
  funext a; apply Fin.ext
  match a with
  | ⟨0, _⟩ =>
    show win0_1.index t (0 : Fin 2) * 1024 + 1 * (k0_off1 (grid0.coords t) 0 + 1 * k.val) = 512 * (t.val % 2) + k.val
    rw [e3, ho]; show 0 * 1024 + 1 * (512 * (grid0.coords t 1).val + 1 * k.val) = _; rw [e11]; omega
  | ⟨1, _⟩ =>
    show win0_1.index t (1 : Fin 2) * 512 + 1 * (k0_off1 (grid0.coords t) 1 + 1 * e.val) = e.val
    rw [e4, ho]; show 0 * 512 + 1 * (0 + 1 * e.val) = _; omega

/-- The decoder term's block at any point is the whole array. -/
theorem blk2_apply (c : Dev nD) (t : Fin cfg0.N) (b : Fin 64) (e : Fin 512) :
    (iblk0 V c 2 t : Vec F S64x512 .f32) (ix2 b e) = V c main_v5 (ix2 b e) := by
  obtain ⟨-, -, -, -, -, e5, e6, -⟩ := idx_facts t
  unfold iblk0
  show V c main_v5 (((cfg0.win 2).blk t).view.emb (ix2 b e)) = _
  refine congrArg (V c main_v5) ?_
  funext a; apply Fin.ext
  match a with
  | ⟨0, _⟩ => show win0_2.index t (0 : Fin 2) * 64 + 1 * b.val = b.val; rw [e5]; omega
  | ⟨1, _⟩ => show win0_2.index t (1 : Fin 2) * 512 + 1 * e.val = e.val; rw [e6]; omega

/-- The scoring vector's block at any point is the whole array. -/
theorem blk3_apply (c : Dev nD) (t : Fin cfg0.N) (z : Fin 1) (e : Fin 512) :
    (iblk0 V c 3 t : Vec F S1x512 .f32) (ix2 z e) = V c main_arg3 (ix2 z e) := by
  obtain ⟨-, -, -, -, -, -, -, e7, e8, -⟩ := idx_facts t
  unfold iblk0
  show V c main_arg3 (((cfg0.win 3).blk t).view.emb (ix2 z e)) = _
  refine congrArg (V c main_arg3) ?_
  funext a; apply Fin.ext
  match a with
  | ⟨0, _⟩ => show win0_3.index t (0 : Fin 2) * 1 + 1 * z.val = z.val; rw [e7]; omega
  | ⟨1, _⟩ => show win0_3.index t (1 : Fin 2) * 512 + 1 * e.val = e.val; rw [e8]; omega

/-- An index of the score array is in point `t`'s output block iff each coordinate is in the block's range. -/
theorem mem_blk4 (t : Fin cfg0.N) (i : S1024x64.Idx) :
    i ∈ ((cfg0.win 4).blk t).view.set ↔ ∀ a : Fin 2, win0_4.index t a * S32x64.size a ≤ (i a).val ∧ (i a).val < win0_4.index t a * S32x64.size a + S32x64.size a := by
  show i ∈ ((View.whole main_v6).slice (win0_4.rect t)).set ↔ _
  rw [View.set_slice_whole, Rect.mem_set_unit]
  exact Iff.rfl

/-- Every index of the score array is in the output block of an odd point: row `r` in that of point `2·(r / 32) + 1`. -/
theorem cover4 (i : S1024x64.Idx) :
    ∃ t : Fin cfg0.N, (cfg0.win 4).flush t = true ∧ i ∈ ((cfg0.win 4).blk t).view.set := by
  have hi0 : (i 0).val < 1024 := (i 0).isLt
  have hi1 : (i 1).val < 64 := (i 1).isLt
  have hN : cfg0.N = 64 := N_0
  let t : Fin cfg0.N := ⟨2 * ((i 0).val / 32) + 1, by omega⟩
  have htv : t.val = 2 * ((i 0).val / 32) + 1 := rfl
  obtain ⟨-, -, -, -, -, -, -, -, -, e9, e10, -⟩ := idx_facts t
  refine ⟨t, (flush0_4 t).mpr (by omega), ?_⟩
  rw [mem_blk4]
  intro a
  match a with
  | ⟨0, _⟩ => show win0_4.index t (0 : Fin 2) * 32 ≤ (i 0).val ∧ (i 0).val < win0_4.index t (0 : Fin 2) * 32 + 32; rw [e9]; omega
  | ⟨1, _⟩ => show win0_4.index t (1 : Fin 2) * 64 ≤ (i 1).val ∧ (i 1).val < win0_4.index t (1 : Fin 2) * 64 + 64; rw [e10]; omega

/-- An element `(p, b)` of point `t`'s output block sits at `(32·li + p, b)` of the score array. -/
theorem emb4 (t : Fin cfg0.N) (p : Fin 32) (b : Fin 64) :
    ((cfg0.win 4).blk t).view.emb (ix2 p b) = (ix2 (rowOf t p) b : S1024x64.Idx) := by
  obtain ⟨-, -, -, -, -, -, -, -, -, e9, e10, -⟩ := idx_facts t
  funext a; apply Fin.ext
  match a with
  | ⟨0, _⟩ => show win0_4.index t (0 : Fin 2) * 32 + 1 * p.val = 32 * (t.val / 2) + p.val; rw [e9]; omega
  | ⟨1, _⟩ => show win0_4.index t (1 : Fin 2) * 64 + 1 * b.val = b.val; rw [e10]; omega

end Cert.KernelIdeal.Val

end
-- ==== Proof.Spec.lean ====
/-
  What both programs compute, as one function of the four argument arrays, over the extended reals.

  With `enc : [1024, 64, 1024]`, `s : [1, 64, 512]`, `W : [512, 1536]` and `v : [1, 512]`:
    pre(l, b, e)  = Σ_{c < 1024} enc(l, b, c) · W(e, c)  +  Σ_{d < 512} s(0, b, d) · W(e, 1024 + d)
    score(l, b)   = Σ_{e < 512} tanh(pre(l, b, e)) · v(0, e)
    out(b, l)     = exp(score(l, b) − M_b) / Σ_{l'} exp(score(l', b) − M_b),   M_b = max_{l'} score(l', b)
  the maximum taken as the fold of `max` from the bottom element, the quotient the extended reals' division.
-/
import Idealize.ShloMosaic.PureOps.Ideal
import Idealize.ShloMosaic.Lib.ValueIdx

noncomputable section

namespace Cert.Spec

open Idealize.ShloMosaic Idealize.ShloMosaic.ValueIdx
open scoped BigOperators

/-- Column `c` of the left block of `W`'s 1536 columns. -/
def colE (c : Fin 1024) : Fin 1536 := ⟨c.val, by omega⟩
/-- Column `d` of the right block of `W`'s 1536 columns. -/
def colS (d : Fin 512) : Fin 1536 := ⟨1024 + d.val, by omega⟩

variable (x0 : (⟨3, ![1024, 64, 1024]⟩ : Shape).Idx → EReal) (x1 : (⟨3, ![1, 64, 512]⟩ : Shape).Idx → EReal)
  (x2 : (⟨2, ![512, 1536]⟩ : Shape).Idx → EReal) (x3 : (⟨2, ![1, 512]⟩ : Shape).Idx → EReal)

/-- The encoder's part of the pre-activation: row `(l, b)` of `enc` against row `e` of `W`'s left block. -/
def encTerm (l : Fin 1024) (b : Fin 64) (e : Fin 512) : EReal :=
  ∑ c : Fin 1024, x0 (ix3 l b c) * x2 (ix2 e (colE c))

/-- The decoder state's part: row `b` of `s` against row `e` of `W`'s right block. -/
def decTerm (b : Fin 64) (e : Fin 512) : EReal :=
  ∑ d : Fin 512, x1 (ix3 (0 : Fin 1) b d) * x2 (ix2 e (colS d))

/-- The attention score of position `l` in batch row `b`. -/
def score (l : Fin 1024) (b : Fin 64) : EReal :=
  ∑ e : Fin 512, Ideal.tanh (encTerm x0 x2 l b e + decTerm x1 x2 b e) * x3 (ix2 (0 : Fin 1) e)

/-- The maximum of a family of 1024 extended reals: the fold of `max` from the bottom element. -/
def rowMax (s : Fin 1024 → EReal) : EReal := (Finset.univ : Finset (Fin 1024)).fold max ⊥ s

/-- The softmax of a family of 1024 extended reals, at position `l`. -/
def soft (s : Fin 1024 → EReal) (l : Fin 1024) : EReal :=
  Ideal.div (Ideal.exp (s l - rowMax s)) (∑ l' : Fin 1024, Ideal.exp (s l' - rowMax s))

/-- The result: the softmax over positions of each batch row's scores. -/
def G : (⟨2, ![64, 1024]⟩ : Shape).Idx → EReal :=
  fun j => soft (fun l => score x0 x1 x2 x3 l (j 0)) (j 1)

theorem G_apply (b : Fin 64) (l : Fin 1024) :
    G x0 x1 x2 x3 (ix2 b l) = soft (fun l' => score x0 x1 x2 x3 l' b) l := rfl

end Cert.Spec

end
-- ==== Proof.PayloadAtAcc.lean ====
/-
  The accumulator tile of the first kernel body, read at an index, at the ideal instance (a float is an
  extended real, every operation exact, a format change the identity): the tile's initial value is zero,
  and each step adds to it the product of a 2048 × 512 matrix of rows — the [32, 64, 512] block viewed
  row-major, row 64·p + b — with a 512 × 512 matrix, a sum over the 512 contraction coordinates.
-/
import proofs.«123207_j19739669692939_2_alg».proof.Proof.Gen.KernelIdeal.Skeleton
import proofs.«123207_j19739669692939_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The zero splat -/

/-- The tile's initial value is zero at every index. -/
theorem pay1_apply (j : S32x64x512.Idx) : k0_pay1 (F := Ideal) j = 0 := by
  unfold k0_pay1
  show shapeCast S32x64x512 (broadcast S32x64x512 (Scalar.ofBits (F := Ideal) .f32 0x00000000#32))
    shapeCasts_S32x64x512_S32x64x512 j = 0
  rw [shapeCast_self]
  exact Ideal.ofBits_zero_f32

/-! ## The row-major view of the block -/

/-- Row `64·p + b` of the `[2048, 512]` view: the row-major position of `(p, b)` in `[32, 64]`. -/
def row (p : Fin 32) (b : Fin 64) : Fin 2048 := ⟨64 * p.val + b.val, by omega⟩

/-- The `[32, 64, 512]` block viewed `[2048, 512]` reads, at row `64·p + b` and column `k`, the block at `(p, b, k)`. -/
theorem rows_of_block {α : Type} (x : S32x64x512.Idx → α) (h : S32x64x512.ShapeCasts S2048x512)
    (p : Fin 32) (b : Fin 64) (k : Fin 512) :
    shapeCast S2048x512 x h (ix2 (row p b) k) = x (ix3 p b k) :=
  shapeCast_apply x h _ _ (by
    rw [Shape.rowMajor_val_three, Shape.rowMajor_val_two]
    show (p.val * 64 + b.val) * 512 + k.val = (64 * p.val + b.val) * 512 + k.val
    omega)

/-- The `[2048, 512]` matrix viewed `[32, 64, 512]` reads, at `(p, b, e)`, the matrix at row `64·p + b`, column `e`. -/
theorem block_of_rows {α : Type} (x : S2048x512.Idx → α) (h : S2048x512.ShapeCasts S32x64x512)
    (p : Fin 32) (b : Fin 64) (e : Fin 512) :
    shapeCast S32x64x512 x h (ix3 p b e) = x (ix2 (row p b) e) :=
  shapeCast_apply x h _ _ (by
    rw [Shape.rowMajor_val_three, Shape.rowMajor_val_two]
    show (64 * p.val + b.val) * 512 + e.val = (p.val * 64 + b.val) * 512 + e.val
    omega)

/-! ## The matrix product into the zero accumulator -/

theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of a `2048 × 512` by a `512 × 512` matrix into the zero accumulator reads, at `(r, e)`, the sum over
the contraction coordinate `k` of the left factor at `(r, k)` times the right factor at `(k, e)`. -/
theorem matmul_rows_apply (A : FVec Ideal S2048x512 .bf16) (B : FVec Ideal S512x512 .bf16) (r : Fin 2048) (e : Fin 512) :
    matmul dot_S2048x512_S512x512_S2048x512_1_0_0_1_n_n none A B (constant (F := Ideal) S2048x512 .f32 0x00000000#32) (ix2 r e)
      = ∑ k : Fin 512, A (ix2 r k) * B (ix2 k e) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r e) ((contrEquiv1 dot_S2048x512_S512x512_S2048x512_1_0_0_1_n_n 512 rfl rfl).symm k) = ix2 r k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 r e) ((contrEquiv1 dot_S2048x512_S512x512_S2048x512_1_0_0_1_n_n 512 rfl rfl).symm k) = ix2 k e := funext fun a => Fin.ext (by
    match a with
    | ⟨0, _⟩ => exact (rhs_0 _ _).trans hk
    | ⟨1, _⟩ => exact rhs_1 _ _)
  rw [el, er]

/-! ## The accumulation step -/

/-- One step of the accumulation: the tile at `(p, b, e)` plus the sum over `k` of the block at `(p, b, k)` times the
weight at `(k, e)`. -/
theorem pay2_apply (v6 : Vec Ideal S512x512 .f32) (v8 v13 : Vec Ideal S32x64x512 .f32) (p : Fin 32) (b : Fin 64) (e : Fin 512) :
    k0_pay2 v6 v8 v13 (ix3 p b e) = v13 (ix3 p b e) + ∑ k : Fin 512, v8 (ix3 p b k) * v6 (ix2 k e) := by
  unfold k0_pay2
  show shapeCast S32x64x512 (addf v13 (shapeCast S32x64x512
      (matmul dot_S2048x512_S512x512_S2048x512_1_0_0_1_n_n none
        (shapeCast S2048x512 (truncf .bf16 v8 bitsLt_bf16_f32) shapeCasts_S32x64x512_S2048x512)
        (truncf .bf16 (shapeCast S512x512 v6 shapeCasts_S512x512_S512x512) bitsLt_bf16_f32)
        (constant (F := Ideal) S2048x512 .f32 0x00000000#32))
      shapeCasts_S2048x512_S32x64x512)) shapeCasts_S32x64x512_S32x64x512 (ix3 p b e) = _
  rw [shapeCast_self, addf_apply, block_of_rows, matmul_rows_apply]
  refine congrArg (v13 (ix3 p b e) + ·) (Finset.sum_congr rfl fun k _ => ?_)
  rw [rows_of_block, truncf_apply, truncf_apply, shapeCast_self]

end Cert.KernelIdeal.Pay

end
-- ==== Proof.PayloadAtScore.lean ====
/-
  The score tile of the first kernel body, read at an index, at the ideal instance (a float is an extended
  real, every operation exact): at position `p` and batch row `b` it is the sum over the 512 lanes `e` of
  `tanh (acc (p, b, e) + bias (b, e)) · w (0, e)` — the bias one `[64, 512]` matrix for all 32 positions, the
  weight one row for all positions and batch rows.
-/
import proofs.«123207_j19739669692939_2_alg».proof.Proof.Gen.KernelIdeal.Skeleton
import proofs.«123207_j19739669692939_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

variable {α : Type}

/-! ## The two broadcasts -/

/-- A `[64, 512]` matrix given a leading unit axis and repeated over 32 positions reads, at `(p, b, e)`, the matrix
at `(b, e)`. -/
theorem over_positions_apply (x : S64x512.Idx → α) (h1 : S64x512.ShapeCasts S1x64x512)
    (h2 : S1x64x512.Broadcasts S32x64x512) (p : Fin 32) (b : Fin 64) (e : Fin 512) :
    broadcastTo S32x64x512 (shapeCast S1x64x512 x h1) h2 (ix3 p b e) = x (ix2 b e) :=
  (broadcastTo_apply _ h2 (ix3 p b e) (ix3 (0 : Fin 1) b e) fun a => by
    match a with
    | ⟨0, _⟩ => rfl
    | ⟨1, _⟩ => rfl
    | ⟨2, _⟩ => rfl).trans (shapeCast_ab_1ab_apply x h1 0 b e)

/-- A `[1, 512]` row given a leading unit axis and repeated over 32 positions and 64 batch rows reads, at
`(p, b, e)`, the row at `e`. -/
theorem over_rows_apply (x : S1x512.Idx → α) (h1 : S1x512.ShapeCasts S1x1x512)
    (h2 : S1x1x512.Broadcasts S32x64x512) (p : Fin 32) (b : Fin 64) (e : Fin 512) :
    broadcastTo S32x64x512 (shapeCast S1x1x512 x h1) h2 (ix3 p b e) = x (ix2 (0 : Fin 1) e) :=
  (broadcastTo_apply _ h2 (ix3 p b e) (ix3 (0 : Fin 1) (0 : Fin 1) e) fun a => by
    match a with
    | ⟨0, _⟩ => rfl
    | ⟨1, _⟩ => rfl
    | ⟨2, _⟩ => rfl).trans (shapeCast_ab_1ab_apply x h1 0 0 e)

/-! ## The lane sum -/

/-- The sum over the last axis of a `[32, 64, 512]` array, from the zero word, reads at `(p, b)` the sum over the
lanes `e` of the array at `(p, b, e)`. -/
theorem lane_sum_apply (src : FVec Ideal S32x64x512 .f32) (h : S32x64x512.Reduces [2] S32x64) (hφ : FKind.Formats .f32)
    (hacc : (0x00000000#32 : BitVec 32) = 0x00000000#32) (p : Fin 32) (b : Fin 64) :
    multiReduction (F := Ideal) .add [2] S32x64 src 0x00000000#32 h hφ hacc (ix2 p b) = ∑ e : Fin 512, src (ix3 p b e) := by
  refine (Ideal.multiReduction_add_single src 0x00000000#32 h hφ hacc (ix2 p b)).trans ?_
  refine Finset.sum_congr rfl fun e _ => congrArg src (funext fun c => ?_)
  match c with
  | ⟨0, _⟩ => rfl
  | ⟨1, _⟩ => rfl
  | ⟨2, _⟩ => rfl

/-- The hyperbolic tangent of an array reads, at an index, the extended reals' `tanh` of the element. -/
theorem tanh_apply {s : Shape} (a : FVec Ideal s .f32) (i : s.Idx) : tanh a i = Ideal.tanh (a i) := rfl

/-! ## The score -/

/-- The score at `(p, b)`: the lane sum of `tanh (acc + bias) · w`. -/
theorem pay3_apply (v22 : Vec Ideal S32x64x512 .f32) (v23 : Vec Ideal S64x512 .f32) (v29 : Vec Ideal S1x512 .f32)
    (p : Fin 32) (b : Fin 64) :
    k0_pay3 v22 v23 v29 (ix2 p b)
      = ∑ e : Fin 512, Ideal.tanh (v22 (ix3 p b e) + v23 (ix2 b e)) * v29 (ix2 (0 : Fin 1) e) := by
  unfold k0_pay3
  show multiReduction (F := Ideal) .add [2] S32x64
      (mulf (tanh (addf v22 (broadcastTo S32x64x512
          (shapeCast S1x64x512 (shapeCast S64x512 v23 shapeCasts_S64x512_S64x512) shapeCasts_S64x512_S1x64x512)
          broadcasts_S1x64x512_S32x64x512)))
        (broadcastTo S32x64x512 (shapeCast S1x1x512 v29 shapeCasts_S1x512_S1x1x512) broadcasts_S1x1x512_S32x64x512))
      0x00000000#32 reduces_S32x64x512_S32x64 (.inl rfl) rfl (ix2 p b) = _
  refine (lane_sum_apply _ _ _ rfl p b).trans (Finset.sum_congr rfl fun e _ => ?_)
  rw [mulf_apply, over_rows_apply, tanh_apply, addf_apply, over_positions_apply, shapeCast_self]

end Cert.KernelIdeal.Pay

end
-- ==== Proof.SumHalves.lean ====
/-
  A sum over 1024 terms is the sum of its first 512 terms plus the sum of its last 512 terms — in any commutative
  monoid, so also over the extended reals, where no finiteness is needed: only the grouping of the sum changes.
-/
import Mathlib.Algebra.BigOperators.Fin

namespace Cert.SumHalves

open scoped BigOperators

/-- The first half's index `k` and the second half's `512 + k`, among 1024. -/
def lo (k : Fin 512) : Fin 1024 := ⟨k.val, by omega⟩
def hi (k : Fin 512) : Fin 1024 := ⟨512 + k.val, by omega⟩

theorem sum_halves {M : Type*} [AddCommMonoid M] (f : Fin 1024 → M) :
    (∑ k : Fin 512, f (lo k)) + ∑ k : Fin 512, f (hi k) = ∑ c : Fin 1024, f c := by
  have h := Fin.sum_univ_add (a := 512) (b := 512) (fun i : Fin (512 + 512) => f ⟨i.val, i.isLt⟩)
  exact h.symm

/-- The same with the accumulation started from zero, as a running sum over two steps leaves it. -/
theorem zero_add_halves {M : Type*} [AddCommMonoid M] (f : Fin 1024 → M) :
    (0 + ∑ k : Fin 512, f (lo k)) + ∑ k : Fin 512, f (hi k) = ∑ c : Fin 1024, f c := by
  rw [zero_add, sum_halves]

end Cert.SumHalves
-- ==== Proof.RawScore.lean ====
/-
  The score array the first kernel region computes, as a function of the four arrays the region finds: the encoder
  output, the transposed left block of the weight, the decoder state's term and the scoring vector.  The contraction
  over the weight's 1024 rows is written in the kernel's order — the first 512 rows onto zero, then the last 512.
-/
import proofs.«123207_j19739669692939_2_alg».proof.KernelIdeal
import proofs.«123207_j19739669692939_2_alg».proof.Proof.SumHalves
import Idealize.ShloMosaic.PureOps.Ideal
import Idealize.ShloMosaic.Lib.ValueIdx

noncomputable section

namespace Cert.KernelIdeal.Val

open Cert.KernelIdeal Idealize.ShloMosaic Idealize.ShloMosaic.ValueIdx
open Cert.SumHalves (lo hi)
open scoped BigOperators

/-- The score of row `l`, batch row `b`, from the four arrays as the region finds them, the contraction over the
    weight's 1024 rows taken in the kernel's order: the first 512 onto zero, then the last 512. -/
def rawAt (a0 : S1024x64x1024.Idx → EReal) (wt : S1024x512.Idx → EReal) (st : S64x512.Idx → EReal)
    (wv : S1x512.Idx → EReal) (l : Fin 1024) (b : Fin 64) : EReal :=
  ∑ e : Fin 512, Ideal.tanh (((0 + ∑ k : Fin 512, a0 (ix3 l b (lo k)) * wt (ix2 (lo k) e))
      + ∑ k : Fin 512, a0 (ix3 l b (hi k)) * wt (ix2 (hi k) e)) + st (ix2 b e)) * wv (ix2 (0 : Fin 1) e)

/-- The score array. -/
def raw (a0 : S1024x64x1024.Idx → EReal) (wt : S1024x512.Idx → EReal) (st : S64x512.Idx → EReal)
    (wv : S1x512.Idx → EReal) : S1024x64.Idx → EReal :=
  fun i => rawAt a0 wt st wv ⟨(i 0).val, (i 0).isLt⟩ ⟨(i 1).val, (i 1).isLt⟩

theorem raw_apply (a0 : S1024x64x1024.Idx → EReal) (wt : S1024x512.Idx → EReal) (st : S64x512.Idx → EReal)
    (wv : S1x512.Idx → EReal) (l : Fin 1024) (b : Fin 64) : raw a0 wt st wv (ix2 l b) = rawAt a0 wt st wv l b := rfl

end Cert.KernelIdeal.Val

end
-- ==== Proof.KiVal0.lean ====
/-
  What the first region leaves in the score array, over the extended reals.

  At an even point `t = 2·li` the body leaves the accumulator at `0 + P_t`, at the odd point `t + 1` at
  `(0 + P_t) + P_{t+1}`, where `P_t(p, b, e) = Σ_{k < 512} enc(32·li + p, b, 512·ci + k) · Wt(512·ci + k, e)` is the
  product of the point's encoder block with the rows of the resident weight the point reads; the odd point then stores,
  into rows `32·li … 32·li + 31` of the score array, `Σ_e tanh(acc(p, b, e) + sterm(b, e)) · v(0, e)`.  The odd
  points' blocks tile the score array, so after the region it holds that function of the four arrays the region found.
-/
import proofs.«123207_j19739669692939_2_alg».proof.Proof.KiR0Pieces
import proofs.«123207_j19739669692939_2_alg».proof.Proof.KiBlocks
import proofs.«123207_j19739669692939_2_alg».proof.Proof.PayloadAtAcc
import proofs.«123207_j19739669692939_2_alg».proof.Proof.PayloadAtScore
import proofs.«123207_j19739669692939_2_alg».proof.Proof.RawScore
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)
open Cert.SumHalves (lo hi)
open scoped BigOperators

variable (V : (c : Dev nD) → (b : Ref sig .tc) → Buf (Elt Ideal) ((c : Thread nD τ).loc b))

/-- The four arrays the region finds, at their literal shapes: the encoder output, the transposed left block of the
    weight, the decoder term, the scoring vector. -/
abbrev A0 (c : Dev nD) : S1024x64x1024.Idx → EReal := V c main_arg0
abbrev Wt (c : Dev nD) : S1024x512.Idx → EReal := V c main_v2
abbrev St (c : Dev nD) : S64x512.Idx → EReal := V c main_v5
abbrev Wv (c : Dev nD) : S1x512.Idx → EReal := V c main_arg3

/-- The product of point `t`'s encoder block with the weight rows the point reads, at `(p, b, e)`. -/
def part (c : Dev nD) (t : Fin cfg0.N) (p : Fin 32) (b : Fin 64) (e : Fin 512) : EReal :=
  ∑ k : Fin 512, A0 V c (ix3 (rowOf t p) b (colOf t k)) * Wt V c (ix2 (colOf t k) e)

/-- One accumulation step at point `t` onto an accumulator `xs`, at `(p, b, e)`. -/
theorem step_apply (c : Dev nD) (t : Fin cfg0.N) (xs : Vec Ideal S32x64x512 .f32) (p : Fin 32) (b : Fin 64) (e : Fin 512) :
    k0_pay2 (View.ld (iblk0 V c 1 t : Vec Ideal S1024x512 .f32)
        (Rect.unit (s := S1024x512) (k0_off1 (grid0.coords t)) S512x512.size (k0_off1_inb (grid0.coords t))))
      (iblk0 V c 0 t) xs (ix3 p b e) = xs (ix3 p b e) + part V c t p b e := by
  refine (pay2_apply _ _ xs p b e).trans ?_
  unfold part
  refine congrArg (xs (ix3 p b e) + ·) (Finset.sum_congr rfl fun k _ => ?_)
  rw [blk0_apply V c t p b k, wblk_apply V c t k e]

/-- After an even point the accumulator holds zero plus the point's product. -/
theorem acc_even (c : Dev nD) (t : Fin cfg0.N) (h0 : t.val % 2 = 0) (p : Fin 32) (b : Fin 64) (e : Fin 512) :
    (outsAt0 V c t.val t.isLt).2 (ix3 p b e) = 0 + part V c t p b e := by
  rw [outsAt0_A V c t h0 (by omega)]
  dsimp only
  rw [sout0_A_eq]
  refine (step_apply V c t _ p b e).trans ?_
  rw [pay1_apply]

/-- After an odd point it holds what the point before left plus the point's product, -/
theorem acc_odd (c : Dev nD) (t : Fin cfg0.N) (h1 : t.val % 2 = 1) (p : Fin 32) (b : Fin 64) (e : Fin 512) :
    (outsAt0 V c t.val t.isLt).2 (ix3 p b e)
      = (outsAt0 V c (t.val - 1) (Nat.lt_of_le_of_lt (Nat.sub_le _ _) t.isLt)).2 (ix3 p b e) + part V c t p b e := by
  rw [outsAt0_B V c t (by omega) h1]
  dsimp only
  rw [sout0_B_eq]
  exact step_apply V c t _ p b e

/-- and the output block holds the scores computed from that accumulator. -/
theorem out_odd (c : Dev nD) (t : Fin cfg0.N) (h1 : t.val % 2 = 1) (p : Fin 32) (b : Fin 64) :
    (outsAt0 V c t.val t.isLt).1 (ix2 p b)
      = ∑ e : Fin 512, Ideal.tanh (((outsAt0 V c (t.val - 1) (Nat.lt_of_le_of_lt (Nat.sub_le _ _) t.isLt)).2 (ix3 p b e)
          + part V c t p b e) + St V c (ix2 b e)) * Wv V c (ix2 (0 : Fin 1) e) := by
  rw [outsAt0_B V c t (by omega) h1]
  dsimp only
  rw [out0_B_eq]
  refine (pay3_apply _ _ _ p b).trans ?_
  refine Finset.sum_congr rfl fun e _ => ?_
  have hs := step_apply V c t (outsAt0 V c (t.val - 1) (Nat.lt_of_le_of_lt (Nat.sub_le _ _) t.isLt)).2 p b e
  have h2 := blk2_apply V c t b e
  have h3 := blk3_apply V c t 0 e
  exact congrArg₂ (· * ·) (congrArg Ideal.tanh (congrArg₂ (· + ·) hs h2)) h3

/-- An odd point's rows and its predecessor's are the same rows; the predecessor reads the first 512 columns, the odd
    point the last 512. -/
theorem rows_cols (t : Fin cfg0.N) (h1 : t.val % 2 = 1) (p : Fin 32) (k : Fin 512) :
    rowOf (⟨t.val - 1, Nat.lt_of_le_of_lt (Nat.sub_le _ _) t.isLt⟩ : Fin cfg0.N) p = rowOf t p
      ∧ colOf (⟨t.val - 1, Nat.lt_of_le_of_lt (Nat.sub_le _ _) t.isLt⟩ : Fin cfg0.N) k = lo k ∧ colOf t k = hi k := by
  refine ⟨Fin.ext ?_, Fin.ext ?_, Fin.ext ?_⟩
  · show 32 * ((t.val - 1) / 2) + p.val = 32 * (t.val / 2) + p.val; omega
  · show 512 * ((t.val - 1) % 2) + k.val = k.val; omega
  · show 512 * (t.val % 2) + k.val = 512 + k.val; omega

/-- What an odd point stores is its rows of the score array. -/
theorem out_odd_raw (c : Dev nD) (t : Fin cfg0.N) (h1 : t.val % 2 = 1) (p : Fin 32) (b : Fin 64) :
    (outsAt0 V c t.val t.isLt).1 (ix2 p b)
      = rawAt (A0 V c) (Wt V c) (St V c) (Wv V c) (rowOf t p) b := by
  rw [out_odd V c t h1 p b]
  unfold rawAt
  refine Finset.sum_congr rfl fun e _ => ?_
  have hprev := acc_even V c ⟨t.val - 1, Nat.lt_of_le_of_lt (Nat.sub_le _ _) t.isLt⟩ (by show (t.val - 1) % 2 = 0; omega) p b e
  have hp1 : part V c ⟨t.val - 1, Nat.lt_of_le_of_lt (Nat.sub_le _ _) t.isLt⟩ p b e
      = ∑ k : Fin 512, A0 V c (ix3 (rowOf t p) b (lo k)) * Wt V c (ix2 (lo k) e) := by
    unfold part
    refine Finset.sum_congr rfl fun k _ => ?_
    obtain ⟨hr, hl, -⟩ := rows_cols t h1 p k
    rw [hr, hl]
  have hp2 : part V c t p b e = ∑ k : Fin 512, A0 V c (ix3 (rowOf t p) b (hi k)) * Wt V c (ix2 (hi k) e) := by
    unfold part
    refine Finset.sum_congr rfl fun k _ => ?_
    obtain ⟨-, -, hh⟩ := rows_cols t h1 p k
    rw [hh]
  rw [show (outsAt0 V c (t.val - 1) (Nat.lt_of_le_of_lt (Nat.sub_le _ _) t.isLt)).2 (ix3 p b e) = _ from hprev, hp1, hp2]

/-- What a flushing point writes back is its block of the score array. -/
theorem flushed4_eq (c : Dev nD) (t : Fin cfg0.N) (hf : (cfg0.win 4).flush t = true) :
    (dat0 V c).flushed 4 t = ((cfg0.win 4).blk t).view.read (Elt Ideal)
      (raw (A0 V c) (Wt V c) (St V c) (Wv V c)) := by
  have h1 : t.val % 2 = 1 := (flush0_4 t).mp hf
  show (cfg0.win 4).cut (grid0.coords t) ((dat0 V c).after 4 t) = _
  rw [after0_4]
  funext j
  obtain ⟨p, b, rfl⟩ : ∃ (p : Fin 32) (b : Fin 64), j = ix2 p b := ⟨j 0, j 1, eq_ix2 j⟩
  show (outsAt0 V c t.val t.isLt).1 (ix2 p b)
    = raw (A0 V c) (Wt V c) (St V c) (Wv V c) (((cfg0.win 4).blk t).view.emb (ix2 p b))
  rw [emb4 t p b, raw_apply, out_odd_raw V c t h1 p b]

/-- The score array after the first region. -/
theorem final0 (c : Dev nD) :
    (dat0 V c).arrAt 4 cfg0.N = raw (A0 V c) (Wt V c) (St V c) (Wv V c) :=
  (dat0 V c).arrAt_eq_of_cover 4 _ (flushed4_eq V c) cover4

end Cert.KernelIdeal.Val

end
-- ==== Proof.KiVal1.lean ====
/-
  The array the second region leaves. Its grid has one point, and at that point each window's block is its whole
  array read through zero offsets: the body's one store covers the output buffer with the payload of what it loaded,
  the load reads the whole input block, and the one write-back covers the output array. So the output array ends
  holding the body's payload of the whole input array, at any float instance.
-/
import proofs.«123207_j19739669692939_2_alg».proof.Proof.KiR1
import Idealize.ShloMosaic.Lib.Pipeline.Value
import Idealize.ShloMosaic.Lib.Tactic

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)

variable {F : FTy → Type} [FloatOps F]
-- the TensorCore's buffer contents when the region is entered
variable (V : (c : Dev nD) → (b : Ref sig .tc) → Buf (Elt F) ((c : Thread nD τ).loc b))

/-- The accesses' offsets are zero on both axes. -/
theorem hz : (![0, 0] : Fin 2 → Nat) = fun _ => 0 := funext fun a => by fin_cases a <;> rfl

/-- At the one point the input window's block starts at offset zero on both axes, -/
theorem off1_0 : (fun a => win1_0.index t1_0 a * main_v6.ty.shape.size a) = fun _ => 0 :=
  funext fun a => by fin_cases a <;> decide

/-- and so does the output window's. -/
theorem off1_1 : (fun a => win1_1.index t1_0 a * main_v7.ty.shape.size a) = fun _ => 0 :=
  funext fun a => by fin_cases a <;> decide

/-- The input window's block at the one point is the whole input array. -/
theorem iblk1_whole (c : Dev nD) : (iblk1 V c 0 t1_0 : Vec F S1024x64 .f32) = V c main_v6 :=
  Memref.read_access_unit_zero (Elt F) main_v6 off1_0 (fun a => by rw [congrFun off1_0 a]; simp) (V c main_v6)

/-- What the one point writes back is the payload of the whole input array, read through the point's block of the
    output array: the store covers the buffer, the load read the whole block, and both blocks are whole arrays. -/
theorem flushed1_eq (c : Dev nD) (t : Fin cfg1.N) (hf : (cfg1.win 1).flush t = true) :
    (dat1 V c).flushed 1 t
      = ((cfg1.win 1).blk t).view.read (Elt F) (k1_pay1 (V c main_v6) : Buf (Elt F) ((c : Thread nD τ).loc main_v7)) := by
  obtain rfl : t = t1_0 := fin_N1 t
  show (cfg1.win 1).cut (grid1.coords t1_0) ((dat1 V c).after 1 t1_0) = _
  rw [after1_1]
  unfold out1_1
  rw [View.canon_unit_zero hz, View.ld_unit_zero (S := S1024x64) hz]
  exact (congrArg k1_pay1 (iblk1_whole V c)).trans
    (Memref.read_access_unit_zero (Elt F) main_v7 off1_1 (fun a => by rw [congrFun off1_1 a]; simp)
      (k1_pay1 (V c main_v6))).symm

/-- The output array after the region: the payload of the whole input array (the one point's block covers it). -/
theorem final1 (c : Dev nD) :
    (dat1 V c).arrAt 1 cfg1.N = (k1_pay1 (V c main_v6) : Buf (Elt F) ((c : Thread nD τ).loc main_v7)) :=
  (dat1 V c).arrAt_eq_of_cover 1 (k1_pay1 (V c main_v6)) (flushed1_eq V c) fun i =>
    ⟨t1_0, flush1_1 t1_0, by
      show i ∈ ((View.whole main_v7).slice (win1_1.rect t1_0)).set
      rw [View.set_slice_whole, Rect.mem_set_unit]
      intro a
      have h0 : (i 0 : Nat) < 64 := (i 0).isLt
      have h1 : (i 1 : Nat) < 1024 := (i 1).isLt
      match a with
      | ⟨0, _⟩ => show win1_1.index t1_0 0 * win1_1.size 0 ≤ (i 0 : Nat) ∧ (i 0 : Nat) < win1_1.index t1_0 0 * win1_1.size 0 + win1_1.xsize (grid1.coords t1_0) 0
                  rw [show win1_1.index t1_0 0 * win1_1.size 0 = 0 from by decide +kernel, show win1_1.xsize (grid1.coords t1_0) 0 = 64 from by decide +kernel]; omega
      | ⟨1, _⟩ => show win1_1.index t1_0 1 * win1_1.size 1 ≤ (i 1 : Nat) ∧ (i 1 : Nat) < win1_1.index t1_0 1 * win1_1.size 1 + win1_1.xsize (grid1.coords t1_0) 1
                  rw [show win1_1.index t1_0 1 * win1_1.size 1 = 0 from by decide +kernel, show win1_1.xsize (grid1.coords t1_0) 1 = 1024 from by decide +kernel]; omega⟩

end Cert.KernelIdeal.Val

end
-- ==== Proof.HostPre.lean ====
/-
  The arrays the host operations before the first kernel region prepare, as functions of the argument arrays.

  From `W : [512, 1536]` the host takes the left block `W[:, :1024]` and transposes it (the kernel's resident
  weight, `Wt(c, e) = W(e, c)`), and takes the right block `W[:, 1024:]`, transposes it and multiplies the decoder
  state `s` (its unit axis dropped) with it: `sterm(b, e) = Σ_{d < 512} s(0, b, d) · W(e, 1024 + d)`.
  The first two facts hold for any float values; the index readings are stated over the extended reals.
-/
import proofs.«123207_j19739669692939_2_alg».proof.Proof.Gen.KernelIdeal.Launch
import proofs.«123207_j19739669692939_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx
open scoped BigOperators

variable {F : FTy → Type} [FloatOps F]

/-- The transposed left block of `W`, as the host computes it. -/
def wT (x2 : (⟨S512x1536, .f32⟩ : BufTy).Contents (Elt F)) : (⟨S1024x512, .f32⟩ : BufTy).Contents (Elt F) :=
  transpose S1024x512 [1, 0] (extractStridedSlice S512x1024 ![0, 0] x2 slices_S512x1536_S512x1024_0_0)
    transposes_S512x1024_S1024x512_1_0

/-- The decoder state's term, as the host computes it: `s` without its unit axis times the transposed right block. -/
def sterm (x1 : (⟨S1x64x512, .f32⟩ : BufTy).Contents (Elt F)) (x2 : (⟨S512x1536, .f32⟩ : BufTy).Contents (Elt F)) :
    (⟨S64x512, .f32⟩ : BufTy).Contents (Elt F) :=
  Host.dotGeneral dot_S64x512_S512x512_S64x512_1_0_0_1_n_n none
    (shapeCast S64x512 x1 shapeCasts_S1x64x512_S64x512)
    (transpose S512x512 [1, 0] (extractStridedSlice S512x512 ![0, 1024] x2 slices_S512x1536_S512x512_0_1024)
      transposes_S512x512_S512x512_1_0)

/-- After the host operations the second operand of the first region holds the transposed left block. -/
theorem after_v2 (W : Valuation τ sig (Elt F)) :
    StableHlo.after hostOps0 W (Proc.devRef .tc main_v2) = wT (W (Proc.devRef .tc main_arg2)) := by
  unfold wT; after_results

/-- After the host operations the third operand of the first region holds the decoder state's term. -/
theorem after_v5 (W : Valuation τ sig (Elt F)) :
    StableHlo.after hostOps0 W (Proc.devRef .tc main_v5)
      = sterm (W (Proc.devRef .tc main_arg1)) (W (Proc.devRef .tc main_arg2)) := by
  unfold sterm; after_results; rfl

/-- No host operation writes the encoder output, -/
theorem after_arg0 (W : Valuation τ sig (Elt F)) :
    StableHlo.after hostOps0 W (Proc.devRef .tc main_arg0) = W (Proc.devRef .tc main_arg0) := by
  after_results
/-- nor the scoring vector. -/
theorem after_arg3 (W : Valuation τ sig (Elt F)) :
    StableHlo.after hostOps0 W (Proc.devRef .tc main_arg3) = W (Proc.devRef .tc main_arg3) := by
  after_results

/-! ## Read at an index, over the extended reals -/

/-- Entry `(c, e)` of the transposed left block is entry `(e, c)` of `W`. -/
theorem wT_apply (x2 : (⟨S512x1536, .f32⟩ : BufTy).Contents (Elt Ideal)) (c : Fin 1024) (e : Fin 512) :
    wT (F := Ideal) x2 (ix2 c e) = x2 (ix2 e (Cert.Spec.colE c)) := by
  unfold wT
  refine (transpose_apply [1, 0] _ transposes_S512x1024_S1024x512_1_0 (ix2 c e) (ix2 e c) (fun b => match b with
    | ⟨0, _⟩ => rfl
    | ⟨1, _⟩ => rfl)).trans ?_
  exact extractStridedSlice_apply ![0, 0] x2 slices_S512x1536_S512x1024_0_0 (ix2 e c) (ix2 e (Cert.Spec.colE c))
    (fun a => match a with
      | ⟨0, _⟩ => by show e.val = 0 + e.val; omega
      | ⟨1, _⟩ => by show c.val = 0 + c.val; omega)

/-- Entry `(d, e)` of the transposed right block is entry `(e, 1024 + d)` of `W`. -/
theorem wS_apply (x2 : (⟨S512x1536, .f32⟩ : BufTy).Contents (Elt Ideal)) (d : Fin 512) (e : Fin 512) :
    transpose S512x512 [1, 0] (extractStridedSlice S512x512 ![0, 1024] x2 slices_S512x1536_S512x512_0_1024)
      transposes_S512x512_S512x512_1_0 (ix2 d e) = x2 (ix2 e (Cert.Spec.colS d)) := by
  refine (transpose_apply [1, 0] _ transposes_S512x512_S512x512_1_0 (ix2 d e) (ix2 e d) (fun b => match b with
    | ⟨0, _⟩ => rfl
    | ⟨1, _⟩ => rfl)).trans ?_
  exact extractStridedSlice_apply ![0, 1024] x2 slices_S512x1536_S512x512_0_1024 (ix2 e d) (ix2 e (Cert.Spec.colS d))
    (fun a => match a with
      | ⟨0, _⟩ => by show e.val = 0 + e.val; omega
      | ⟨1, _⟩ => by show 1024 + d.val = 1024 + d.val; omega)

/-- Entry `(b, d)` of the decoder state without its unit axis is entry `(0, b, d)` of `s`. -/
theorem sflat_apply (x1 : (⟨S1x64x512, .f32⟩ : BufTy).Contents (Elt Ideal)) (b : Fin 64) (d : Fin 512) :
    shapeCast S64x512 x1 shapeCasts_S1x64x512_S64x512 (ix2 b d) = x1 (ix3 (0 : Fin 1) b d) :=
  shapeCast_apply x1 shapeCasts_S1x64x512_S64x512 (ix2 b d) (ix3 (0 : Fin 1) b d)
    (by rewrite [Shape.rowMajor_val_three, Shape.rowMajor_val_two]
        show ((0 : Fin 1).val * 64 + b.val) * 512 + d.val = b.val * 512 + d.val
        simp)

/-- The host product's index maps, coordinate by coordinate: the left operand is read at `(i₀, k)`, -/
theorem lhs_0 (i : S64x512.Idx) (q : dot_S64x512_S512x512_S64x512_1_0_0_1_n_n.contr.Idx) :
    (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem lhs_1 (i : S64x512.Idx) (q : dot_S64x512_S512x512_S64x512_1_0_0_1_n_n.contr.Idx) :
    (dot_S64x512_S512x512_S64x512_1_0_0_1_n_n.lhsIdx i q 1).val = (q ⟨0, by decide⟩).val :=
  dot_S64x512_S512x512_S64x512_1_0_0_1_n_n.lhsIdx_val_of_single rfl i q
/-- the right operand at `(k, i₁)`. -/
theorem rhs_0 (i : S64x512.Idx) (q : dot_S64x512_S512x512_S64x512_1_0_0_1_n_n.contr.Idx) :
    (dot_S64x512_S512x512_S64x512_1_0_0_1_n_n.rhsIdx i q 0).val = (q ⟨0, by decide⟩).val :=
  dot_S64x512_S512x512_S64x512_1_0_0_1_n_n.rhsIdx_val_of_single rfl i q
theorem rhs_1 (i : S64x512.Idx) (q : dot_S64x512_S512x512_S64x512_1_0_0_1_n_n.contr.Idx) :
    (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The decoder state's term at `(b, e)` is the specification's. -/
theorem sterm_apply (x1 : (⟨S1x64x512, .f32⟩ : BufTy).Contents (Elt Ideal))
    (x2 : (⟨S512x1536, .f32⟩ : BufTy).Contents (Elt Ideal)) (b : Fin 64) (e : Fin 512) :
    sterm (F := Ideal) x1 x2 (ix2 b e) = Cert.Spec.decTerm x1 x2 b e := by
  unfold sterm Cert.Spec.decTerm
  generalize hy : shapeCast S64x512 x1 shapeCasts_S1x64x512_S64x512 = y
  generalize hz : transpose S512x512 [1, 0] (extractStridedSlice S512x512 ![0, 1024] x2 slices_S512x1536_S512x512_0_1024)
      transposes_S512x512_S512x512_1_0 = z
  simp only [Host.dotGeneral]
  rw [Ideal.dotGeneral_apply, ← Equiv.sum_comp (ValueIdx.contrEquiv1 dot_S64x512_S512x512_S64x512_1_0_0_1_n_n 512 rfl rfl).symm]
  refine Finset.sum_congr rfl fun k _ => ?_
  have hk := ValueIdx.contrEquiv1_symm_val dot_S64x512_S512x512_S64x512_1_0_0_1_n_n 512 rfl rfl k
  have el : dot_S64x512_S512x512_S64x512_1_0_0_1_n_n.lhsIdx (ix2 b e) ((ValueIdx.contrEquiv1 dot_S64x512_S512x512_S64x512_1_0_0_1_n_n 512 rfl rfl).symm k) = ix2 b k :=
    funext fun a => Fin.ext (by
      match a with
      | ⟨0, _⟩ => exact lhs_0 _ _
      | ⟨1, _⟩ => exact (lhs_1 _ _).trans hk)
  have er : dot_S64x512_S512x512_S64x512_1_0_0_1_n_n.rhsIdx (ix2 b e) ((ValueIdx.contrEquiv1 dot_S64x512_S512x512_S64x512_1_0_0_1_n_n 512 rfl rfl).symm k) = ix2 k e :=
    funext fun a => Fin.ext (by
      match a with
      | ⟨0, _⟩ => exact (rhs_0 _ _).trans hk
      | ⟨1, _⟩ => exact rhs_1 _ _)
  rw [el, er, ← hy, ← hz, sflat_apply, wS_apply]

end Cert.KernelIdeal.HostPre

end
-- ==== Proof.PayloadAtSoft.lean ====
/-
  The second kernel body's stored value, read at an index, at the ideal instance (a float is an extended
  real, every operation exact): the softmax down the 1024 positions of each of the 64 columns of a
  `[1024, 64]` matrix — the column's maximum (the fold of `max` from the bottom element), the exponentials
  of the differences, their sum, the quotient — written transposed, so that the value at `(b, l)` is the
  softmax of column `b` at position `l`.
-/
import proofs.«123207_j19739669692939_2_alg».proof.Proof.Gen.KernelIdeal.Skeleton
import proofs.«123207_j19739669692939_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

variable {α : Type}

/-! ## One value per column, repeated down the rows -/

/-- A `[64]` vector given a leading unit axis and repeated over 1024 rows reads, at `(l, b)`, the vector at `b`. -/
theorem over_column_apply (x : S64.Idx → α) (h1 : S64.ShapeCasts S1x64) (h2 : S1x64.Broadcasts S1024x64)
    (l : Fin 1024) (b : Fin 64) :
    broadcastTo S1024x64 (shapeCast S1x64 x h1) h2 (ix2 l b) = x (ix1 b) :=
  (broadcastTo_1b_ab_apply _ h2 l b).trans (shapeCast_a_1a_apply x h1 0 b)

/-! ## The two reductions down a column -/

/-- The word of `-∞` denotes the bottom element of the extended reals. -/
theorem neg_inf_word : Ideal.ofBits .f32 0xFF800000#32 = ⊥ := by simp [Ideal.ofBits, Ideal.ieee]

/-- The maximum down axis 0 of a `[1024, 64]` matrix, from the word of `-∞`, reads at column `b` the fold of `max`
from the bottom element over the column's 1024 entries. -/
theorem column_max_apply (src : FVec Ideal S1024x64 .f32) (h : S1024x64.Reduces [0] S64) (hφ : FKind.Formats .f32)
    (hacc : (0xFF800000#32 : BitVec 32) = 0xFF800000#32) (b : Fin 64) :
    multiReduction (F := Ideal) .maximumf [0] S64 src 0xFF800000#32 h hφ hacc (ix1 b)
      = Cert.Spec.rowMax (fun l => src (ix2 l b)) := by
  refine (Ideal.multiReduction_maximumf_single src 0xFF800000#32 h hφ hacc (ix1 b)).trans ?_
  have e1 : (src ∘ h.lift (ix1 b)) = fun l : Fin 1024 => src (ix2 l b) :=
    funext fun l => congrArg src (funext fun c => by
      match c with
      | ⟨0, _⟩ => rfl
      | ⟨1, _⟩ => rfl)
  have e2 : FloatOps.ofBits (F := Ideal) .f32 0xFF800000#32 = (⊥ : EReal) := neg_inf_word
  show (Finset.univ : Finset (Fin 1024)).fold max (FloatOps.ofBits (F := Ideal) .f32 0xFF800000#32) (src ∘ h.lift (ix1 b))
    = (Finset.univ : Finset (Fin 1024)).fold max ⊥ (fun l => src (ix2 l b))
  rw [e1, e2]
  rfl

/-- The sum down axis 0 of a `[1024, 64]` matrix, from the zero word, reads at column `b` the sum of the column's
1024 entries. -/
theorem column_sum_apply (src : FVec Ideal S1024x64 .f32) (h : S1024x64.Reduces [0] S64) (hφ : FKind.Formats .f32)
    (hacc : (0x00000000#32 : BitVec 32) = 0x00000000#32) (b : Fin 64) :
    multiReduction (F := Ideal) .add [0] S64 src 0x00000000#32 h hφ hacc (ix1 b) = ∑ l : Fin 1024, src (ix2 l b) := by
  refine (Ideal.multiReduction_add_single src 0x00000000#32 h hφ hacc (ix1 b)).trans ?_
  refine Finset.sum_congr rfl fun l _ => congrArg src (funext fun c => ?_)
  match c with
  | ⟨0, _⟩ => rfl
  | ⟨1, _⟩ => rfl

/-- The exponential of an array reads, at an index, the extended reals' `exp` of the element. -/
theorem exp_apply {s : Shape} (a : FVec Ideal s .f32) (i : s.Idx) : exp a i = Ideal.exp (a i) := rfl

/-! ## The exponentials of the differences from the column's maximum -/

/-- `exp (x − the column maxima repeated down the rows)`. -/
def shifted (x : FVec Ideal S1024x64 .f32) : FVec Ideal S1024x64 .f32 :=
  exp (subf x (broadcastTo S1024x64 (shapeCast S1x64
    (multiReduction (F := Ideal) .maximumf [0] S64 x 0xFF800000#32 reduces_S1024x64_S64 (.inl rfl) rfl)
    shapeCasts_S64_S1x64) broadcasts_S1x64_S1024x64))

/-- At `(l, b)` it is `exp` of the entry minus its column's maximum. -/
theorem shifted_apply (x : FVec Ideal S1024x64 .f32) (l : Fin 1024) (b : Fin 64) :
    shifted x (ix2 l b) = Ideal.exp (x (ix2 l b) - Cert.Spec.rowMax (fun l' => x (ix2 l' b))) := by
  unfold shifted
  rw [exp_apply, subf_apply, over_column_apply]
  exact congrArg (fun m => Ideal.exp (x (ix2 l b) - m)) (column_max_apply x _ _ rfl b)

/-! ## The softmax, transposed -/

/-- The stored value at `(b, l)` is the softmax of column `b` at position `l`. -/
theorem pay_soft_apply (v0 : Vec Ideal S1024x64 .f32) (b : Fin 64) (l : Fin 1024) :
    k1_pay1 v0 (ix2 b l) = Cert.Spec.soft (fun l' => v0 (ix2 l' b)) l := by
  unfold k1_pay1
  show transpose S64x1024 [1, 0]
      (divf (shifted (shapeCast S1024x64 v0 shapeCasts_S1024x64_S1024x64))
        (broadcastTo S1024x64 (shapeCast S1x64
          (multiReduction (F := Ideal) .add [0] S64 (shifted (shapeCast S1024x64 v0 shapeCasts_S1024x64_S1024x64))
            0x00000000#32 reduces_S1024x64_S64 (.inl rfl) rfl)
          shapeCasts_S64_S1x64) broadcasts_S1x64_S1024x64))
      transposes_S1024x64_p1_0_S64x1024 (ix2 b l) = _
  rw [shapeCast_self, transpose_ix2_apply, divf_apply, over_column_apply, shifted_apply]
  unfold Cert.Spec.soft
  exact congrArg (Ideal.div _) ((column_sum_apply _ _ _ rfl b).trans
    (Finset.sum_congr rfl fun l' _ => shifted_apply v0 l' b))

end Cert.KernelIdeal.Pay

end
-- ==== Proof.KiIsSpec.lean ====
/-
  The kernel's two regions compose to the specification, over the extended reals.

  With the arrays the host prepares — `Wt(c, e) = W(e, c)` and `sterm(b, e) = Σ_d s(0, b, d) · W(e, 1024 + d)` — the
  score array's entry `(l, b)` is `Σ_e tanh(((0 + Σ_{k<512} enc(l,b,k)·W(e,k)) + Σ_{k<512} enc(l,b,512+k)·W(e,512+k)) +
  sterm(b,e)) · v(0,e)`; a sum over 1024 terms is the sum of its halves, so this is the specification's score, and the
  second region's softmax down the columns of the score array, transposed, is the specification's result.
-/
import proofs.«123207_j19739669692939_2_alg».proof.Proof.RawScore
import proofs.«123207_j19739669692939_2_alg».proof.Proof.HostPre
import proofs.«123207_j19739669692939_2_alg».proof.Proof.PayloadAtSoft
import proofs.«123207_j19739669692939_2_alg».proof.Proof.Spec

noncomputable section

namespace Cert.KernelIdeal.Val

open Cert.KernelIdeal Cert.KernelIdeal.Gen Cert.KernelIdeal.Pay Cert.KernelIdeal.HostPre
open Idealize.ShloMosaic Idealize.ShloMosaic.ValueIdx
open Cert.SumHalves (lo hi)
open scoped BigOperators

variable (x0 : (⟨S1024x64x1024, .f32⟩ : BufTy).Contents (Elt Ideal)) (x1 : (⟨S1x64x512, .f32⟩ : BufTy).Contents (Elt Ideal))
  (x2 : (⟨S512x1536, .f32⟩ : BufTy).Contents (Elt Ideal)) (x3 : (⟨S1x512, .f32⟩ : BufTy).Contents (Elt Ideal))

/-- The score array's entry is the specification's score. -/
theorem rawAt_eq_score (l : Fin 1024) (b : Fin 64) :
    rawAt x0 (wT (F := Ideal) x2) (sterm (F := Ideal) x1 x2) x3 l b = Cert.Spec.score x0 x1 x2 x3 l b := by
  unfold rawAt Cert.Spec.score
  refine Finset.sum_congr rfl fun e _ => ?_
  rw [sterm_apply]
  have henc : (0 + ∑ k : Fin 512, x0 (ix3 l b (lo k)) * wT (F := Ideal) x2 (ix2 (lo k) e))
      + ∑ k : Fin 512, x0 (ix3 l b (hi k)) * wT (F := Ideal) x2 (ix2 (hi k) e) = Cert.Spec.encTerm x0 x2 l b e := by
    unfold Cert.Spec.encTerm
    rw [← Cert.SumHalves.zero_add_halves (fun c => x0 (ix3 l b c) * x2 (ix2 e (Cert.Spec.colE c)))]
    simp only [wT_apply]
  rw [henc]

/-- The second region's payload of the score array is the specification's result. -/
theorem kernel_is_spec :
    (k1_pay1 (F := Ideal) (raw x0 (wT (F := Ideal) x2) (sterm (F := Ideal) x1 x2) x3) : S64x1024.Idx → EReal)
      = Cert.Spec.G x0 x1 x2 x3 := by
  funext j
  obtain ⟨b, l, rfl⟩ : ∃ (b : Fin 64) (l : Fin 1024), j = ix2 b l := ⟨j 0, j 1, eq_ix2 j⟩
  rw [pay_soft_apply, Cert.Spec.G_apply]
  refine congrArg (fun s => Cert.Spec.soft s l) (funext fun l' => ?_)
  rw [raw_apply, rawAt_eq_score]

end Cert.KernelIdeal.Val

end
-- ==== Proof.KiResult.lean ====
/-
  The idealized kernel program's run, read: its result array ends holding the specification's function of the four
  argument arrays, and the argument arrays end unchanged.

  The run leaves every buffer at a fold through the program: the host operations, the first region's write-backs (the
  score array), the second region's (the result).  The result is the second region's payload of the score array; the
  score array is the first region's function of the arrays it found; those are the encoder output and the scoring vector
  as launched, and the transposed left block of the weight and the decoder term the host operations prepared.
-/
import proofs.«123207_j19739669692939_2_alg».proof.Proof.KiRun
import proofs.«123207_j19739669692939_2_alg».proof.Proof.KiVal0
import proofs.«123207_j19739669692939_2_alg».proof.Proof.KiVal1
import proofs.«123207_j19739669692939_2_alg».proof.Proof.KiIsSpec
import proofs.«123207_j19739669692939_2_alg».proof.Proof.HostPre

noncomputable section

namespace Cert.KernelIdeal.Val

open Cert.KernelIdeal Cert.KernelIdeal.Gen Cert.KernelIdeal.Fr Cert.KernelIdeal.HostPre
open Idealize.ShloMosaic Idealize.ShloMosaic.TcCoe Idealize.SL.Sem

variable (m : (ℓ : Loc nD τ sig) → Buf (Elt Ideal) ℓ) (ρ : Dev nD → PrngReg)

/-- The arrays the first region finds. -/
theorem V1_arg0 (c : Dev nD) : V1 m ρ c main_arg0 = m ((c : Thread nD τ).loc main_arg0) :=
  after_arg0 (W0 m ρ c)
theorem V1_arg3 (c : Dev nD) : V1 m ρ c main_arg3 = m ((c : Thread nD τ).loc main_arg3) :=
  after_arg3 (W0 m ρ c)
theorem V1_v2 (c : Dev nD) : V1 m ρ c main_v2 = wT (m ((c : Thread nD τ).loc main_arg2)) :=
  after_v2 (W0 m ρ c)
theorem V1_v5 (c : Dev nD) :
    V1 m ρ c main_v5 = sterm (m ((c : Thread nD τ).loc main_arg1)) (m ((c : Thread nD τ).loc main_arg2)) :=
  after_v5 (W0 m ρ c)

/-- The score array the second region finds is the first region's function of those. -/
theorem V2_v6 (c : Dev nD) :
    V2 m ρ c main_v6 = raw (m ((c : Thread nD τ).loc main_arg0)) (wT (m ((c : Thread nD τ).loc main_arg2)))
      (sterm (m ((c : Thread nD τ).loc main_arg1)) (m ((c : Thread nD τ).loc main_arg2)))
      (m ((c : Thread nD τ).loc main_arg3)) := by
  refine ((W2_arr m ρ c 4).trans (final0 (V1 m ρ) c)).trans ?_
  show raw (V1 m ρ c main_arg0) (V1 m ρ c main_v2) (V1 m ρ c main_v5) (V1 m ρ c main_arg3) = _
  rw [V1_arg0, V1_arg3, V1_v2, V1_v5]

/-- The result array after the run is the specification's function of the argument arrays. -/
theorem result_eq (c : Dev nD) :
    W3 m ρ c (Proc.devRef .tc main_v7)
      = Cert.Spec.G (m ((c : Thread nD τ).loc main_arg0)) (m ((c : Thread nD τ).loc main_arg1))
          (m ((c : Thread nD τ).loc main_arg2)) (m ((c : Thread nD τ).loc main_arg3)) := by
  refine ((W3_arr m ρ c 1).trans (final1 (V2 m ρ) c)).trans ?_
  rw [V2_v6]
  exact kernel_is_spec _ _ _ _

/-- THE RUN, READ: every weakly fair execution terminates with the result array at the specification's function of the
    launch contents of the argument arrays, and the argument arrays unchanged. -/
theorem run : θ_run defs (onTc (τ := τ) (main (F := Ideal))) ⟨m, fun _ => 0, ρ⟩ (fun r => ∀ c : Dev nD,
      r.2.mem ((c.tc : Thread nD τ).loc main_v7)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨(h c _ (mem_uc main_v7 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩

end Cert.KernelIdeal.Val

end
-- ==== Proof.RefIsSpec.lean ====
/-
  The reference program computes the specification: read one operation at a time at the ideal instance, its result at
  (b, l) is the softmax over positions of batch row b's scores, at position l.
-/
import proofs.«123207_j19739669692939_2_alg».proof.Proof.Gen.ReferenceIdeal.Read
import proofs.«123207_j19739669692939_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The index maps of the layout operations and contractions, at coordinates -/

/-- The transpose reads (b, l) at (l, b). -/
theorem idx_v9 (b : Fin 64) (l : Fin 1024) : idx_main_v9 (ix2 b l) = ix2 l b :=
  funext fun a => Fin.ext (by match a with | ⟨0, _⟩ => rfl | ⟨1, _⟩ => rfl)

/-- Dropping the trailing unit axis reads (l, b) at (l, b, 0). -/
theorem idx_v8 (l : Fin 1024) (b : Fin 64) : idx_main_v8 (ix2 l b) = ix3 l b (0 : Fin 1) :=
  funext fun a => Fin.ext (by
    have hl : l.val < 1024 := l.isLt
    have hb : b.val < 64 := b.isLt
    match a with
    | ⟨0, _⟩ => show (l.val * 64 + b.val) / 64 = l.val; omega
    | ⟨1, _⟩ => show (l.val * 64 + b.val) / 1 % 64 = b.val; omega
    | ⟨2, _⟩ => rfl)

/-- The contraction with the weight row: the left factor at (l, b, e). -/
theorem lidx_v7 (l : Fin 1024) (b : Fin 64) (e : Fin 512) : lidx_main_v7 (ix3 l b (0 : Fin 1)) e = ix3 l b e :=
  funext fun a => Fin.ext (by match a with | ⟨0, _⟩ => rfl | ⟨1, _⟩ => rfl | ⟨2, _⟩ => rfl)

/-- The contraction with the weight row: the right factor at (0, e). -/
theorem ridx_v7 (l : Fin 1024) (b : Fin 64) (e : Fin 512) : ridx_main_v7 (ix3 l b (0 : Fin 1)) e = ix2 (0 : Fin 1) e :=
  funext fun a => Fin.ext (by match a with | ⟨0, _⟩ => rfl | ⟨1, _⟩ => rfl)

/-- The encoder's contraction: the left factor at (l, b, c). -/
theorem lidx_v2 (l : Fin 1024) (b : Fin 64) (e : Fin 512) (c : Fin 1024) : lidx_main_v2 (ix3 l b e) c = ix3 l b c :=
  funext fun a => Fin.ext (by match a with | ⟨0, _⟩ => rfl | ⟨1, _⟩ => rfl | ⟨2, _⟩ => rfl)

/-- The encoder's contraction: the right factor at (e, c) of the left block. -/
theorem ridx_v2 (l : Fin 1024) (b : Fin 64) (e : Fin 512) (c : Fin 1024) : ridx_main_v2 (ix3 l b e) c = ix2 e c :=
  funext fun a => Fin.ext (by match a with | ⟨0, _⟩ => rfl | ⟨1, _⟩ => rfl)

/-- The left block's column c is column c of the whole matrix. -/
theorem idx_v0 (e : Fin 512) (c : Fin 1024) : idx_main_v0 (ix2 e c) = ix2 e (Cert.Spec.colE c) :=
  funext fun a => Fin.ext (by match a with | ⟨0, _⟩ => rfl | ⟨1, _⟩ => rfl)

/-- The decoder's term is the same for every position: (l, b, e) reads (0, b, e). -/
theorem idx_v4 (l : Fin 1024) (b : Fin 64) (e : Fin 512) : idx_main_v4 (ix3 l b e) = ix3 (0 : Fin 1) b e :=
  funext fun a => Fin.ext (by match a with | ⟨0, _⟩ => rfl | ⟨1, _⟩ => rfl | ⟨2, _⟩ => rfl)

/-- The decoder's contraction: the left factor at (0, b, d). -/
theorem lidx_v3 (b : Fin 64) (e : Fin 512) (d : Fin 512) : lidx_main_v3 (ix3 (0 : Fin 1) b e) d = ix3 (0 : Fin 1) b d :=
  funext fun a => Fin.ext (by match a with | ⟨0, _⟩ => rfl | ⟨1, _⟩ => rfl | ⟨2, _⟩ => rfl)

/-- The decoder's contraction: the right factor at (e, d) of the right block. -/
theorem ridx_v3 (b : Fin 64) (e : Fin 512) (d : Fin 512) : ridx_main_v3 (ix3 (0 : Fin 1) b e) d = ix2 e d :=
  funext fun a => Fin.ext (by match a with | ⟨0, _⟩ => rfl | ⟨1, _⟩ => rfl)

/-- The right block's column d is column 1024 + d of the whole matrix. -/
theorem idx_v1 (e : Fin 512) (d : Fin 512) : idx_main_v1 (ix2 e d) = ix2 e (Cert.Spec.colS d) :=
  funext fun a => Fin.ext (by match a with | ⟨0, _⟩ => rfl | ⟨1, _⟩ => rfl)

variable (x0 : (⟨S1024x64x1024, .f32⟩ : BufTy).Contents (Elt Ideal)) (x1 : (⟨S1x64x512, .f32⟩ : BufTy).Contents (Elt Ideal))
  (x2 : (⟨S512x1536, .f32⟩ : BufTy).Contents (Elt Ideal)) (x3 : (⟨S1x512, .f32⟩ : BufTy).Contents (Elt Ideal))

/-! ## The scores -/

/-- The encoder's contraction at (l, b, e). -/
theorem v2_apply (l : Fin 1024) (b : Fin 64) (e : Fin 512) :
    val_main_v2 (F := Ideal) x0 x2 (ix3 l b e) = Cert.Spec.encTerm x0 x2 l b e := by
  rw [val_main_v2_apply]
  unfold Cert.Spec.encTerm
  refine Finset.sum_congr rfl fun c _ => ?_
  rw [val_main_v0_apply, lidx_v2, ridx_v2, idx_v0]

/-- The decoder's contraction at (0, b, e). -/
theorem v3_apply (b : Fin 64) (e : Fin 512) :
    val_main_v3 (F := Ideal) x1 x2 (ix3 (0 : Fin 1) b e) = Cert.Spec.decTerm x1 x2 b e := by
  rw [val_main_v3_apply]
  unfold Cert.Spec.decTerm
  refine Finset.sum_congr rfl fun d _ => ?_
  rw [val_main_v1_apply, lidx_v3, ridx_v3, idx_v1]

/-- The reference's score array at (b, l) is the score of position l in batch row b. -/
theorem v9_apply (b : Fin 64) (l : Fin 1024) :
    val_main_v9 (F := Ideal) x0 x1 x2 x3 (ix2 b l) = Cert.Spec.score x0 x1 x2 x3 l b := by
  rw [val_main_v9_apply, idx_v9, val_main_v8_apply, idx_v8, val_main_v7_apply]
  unfold Cert.Spec.score
  refine Finset.sum_congr rfl fun e _ => ?_
  rw [lidx_v7, ridx_v7, val_main_v6_apply, val_main_v5_apply, val_main_v4_apply, idx_v4, v2_apply, v3_apply,
    Ideal.hostUnary_tanh_def, Ideal.addf_def]

/-! ## The row maximum -/

/-- The word of the fold's initial value is the bottom element. -/
theorem negInf_eq_bot : (Ideal.ofBits .f32 0xFF800000#32 : Ideal .f32) = (⊥ : EReal) := by
  simp [Ideal.ofBits, Ideal.ieee]

/-- The shapes of the reduction over positions. -/
theorem reduces_d1 : S64x1024.Reduces [1] S64 := by decide

/-- Batch row b with position k put back on the reduced axis is (b, k). -/
theorem lift_row (b : Fin 64) (k : Fin 1024) : reduces_d1.lift (ix1 b) k = ix2 b k := by
  funext c; apply Fin.ext
  match c with
  | ⟨0, _⟩ => rfl
  | ⟨1, _⟩ => rfl

/-- The reduction with maximum over positions, at batch row b, is the maximum of the row's scores. -/
theorem v10_apply (b : Fin 64) :
    val_main_v10 (F := Ideal) x0 x1 x2 x3 (ix1 b) = Cert.Spec.rowMax (fun l => Cert.Spec.score x0 x1 x2 x3 l b) := by
  unfold val_main_v10
  rw [Host.reduce_eq_fold_single FloatOps.maximumf _ _ reducesTo_S64x1024_S64_d1 reduces_d1 h_S_]
  have hf : (val_main_v9 (F := Ideal) x0 x1 x2 x3 ∘ reduces_d1.lift (ix1 b))
      = fun l : Fin 1024 => Cert.Spec.score x0 x1 x2 x3 l b :=
    funext fun (k : Fin 1024) =>
      (congrArg (val_main_v9 (F := Ideal) x0 x1 x2 x3) (lift_row b k)).trans (v9_apply x0 x1 x2 x3 b k)
  show Finset.fold max (Ideal.ofBits .f32 0xFF800000#32 : Ideal .f32)
      (val_main_v9 (F := Ideal) x0 x1 x2 x3 ∘ reduces_d1.lift (ix1 b)) (Finset.univ : Finset (Fin 1024))
    = Finset.fold max (⊥ : EReal) (fun l : Fin 1024 => Cert.Spec.score x0 x1 x2 x3 l b) Finset.univ
  exact congrArg₂ (fun (i : EReal) (f : Fin 1024 → EReal) => Finset.fold max i f (Finset.univ : Finset (Fin 1024)))
    negInf_eq_bot hf

/-- The maximum with the constant bottom row changes nothing. -/
theorem v12_apply (b : Fin 64) :
    val_main_v12 (F := Ideal) x0 x1 x2 x3 (ix1 b) = Cert.Spec.rowMax (fun l => Cert.Spec.score x0 x1 x2 x3 l b) := by
  rw [val_main_v12_apply, val_main_v11_apply, val_main_cst_0_apply, v10_apply]
  show max (Ideal.ofBits .f32 0xFF800000#32 : Ideal .f32) _ = _
  rw [negInf_eq_bot]
  exact max_eq_right bot_le

/-! ## The softmax -/

/-- The row's value spread over the positions: (b, l) reads (b, 0). -/
theorem idx_v14 (b : Fin 64) (l : Fin 1024) : idx_main_v14 (ix2 b l) = ix2 b (0 : Fin 1) :=
  funext fun a => Fin.ext (by match a with | ⟨0, _⟩ => rfl | ⟨1, _⟩ => rfl)

/-- The added unit axis: (b, 0) reads b. -/
theorem idx_v13 (b : Fin 64) : idx_main_v13 (ix2 b (0 : Fin 1)) = ix1 b :=
  funext fun a => Fin.ext (by match a with | ⟨0, _⟩ => rfl)

/-- The same two maps, for the row sums. -/
theorem idx_v19 (b : Fin 64) (l : Fin 1024) : idx_main_v19 (ix2 b l) = ix2 b (0 : Fin 1) :=
  funext fun a => Fin.ext (by match a with | ⟨0, _⟩ => rfl | ⟨1, _⟩ => rfl)

theorem idx_v18 (b : Fin 64) : idx_main_v18 (ix2 b (0 : Fin 1)) = ix1 b :=
  funext fun a => Fin.ext (by match a with | ⟨0, _⟩ => rfl)

/-- The sum over positions, at batch row b, runs over (b, k). -/
theorem idx_v17 (b : Fin 64) (k : Fin 1024) : idx_main_v17 (ix1 b) k = ix2 b k :=
  funext fun a => Fin.ext (by match a with | ⟨0, _⟩ => rfl | ⟨1, _⟩ => rfl)

/-- The exponential of the score less the row's maximum, at (b, l). -/
theorem v16_apply (b : Fin 64) (l : Fin 1024) :
    val_main_v16 (F := Ideal) x0 x1 x2 x3 (ix2 b l)
      = Ideal.exp (Cert.Spec.score x0 x1 x2 x3 l b - Cert.Spec.rowMax (fun l' => Cert.Spec.score x0 x1 x2 x3 l' b)) := by
  rw [val_main_v16_apply, val_main_v15_apply, val_main_v14_apply, idx_v14, val_main_v13_apply, idx_v13, v12_apply, v9_apply,
    Ideal.hostUnary_exp_def, Ideal.subf_def]

/-- The row's sum of exponentials. -/
theorem v17_apply (b : Fin 64) :
    val_main_v17 (F := Ideal) x0 x1 x2 x3 (ix1 b)
      = ∑ l' : Fin 1024, Ideal.exp (Cert.Spec.score x0 x1 x2 x3 l' b - Cert.Spec.rowMax (fun l'' => Cert.Spec.score x0 x1 x2 x3 l'' b)) := by
  rw [val_main_v17_apply, val_main_cst_1_apply]
  show (Ideal.ofBits .f32 0x00000000#32 : Ideal .f32) + _ = _
  rw [Ideal.ofBits_zero_f32, zero_add]
  refine Finset.sum_congr rfl fun k _ => ?_
  rw [idx_v17, v16_apply]

/-- The reference's result is the specification. -/
theorem ref_is_spec :
    val_main_v20 (F := Ideal) x0 x1 x2 x3 = Cert.Spec.G x0 x1 x2 x3 := by
  funext j
  obtain ⟨b, l, rfl⟩ : ∃ (b : Fin 64) (l : Fin 1024), j = ix2 b l := ⟨j 0, j 1, ValueIdx.eq_ix2 j⟩
  rw [Cert.Spec.G_apply, val_main_v20_apply, val_main_v19_apply, idx_v19, val_main_v18_apply, idx_v18, v17_apply, v16_apply,
    Ideal.hostDivf_def]
  rfl

end Cert.ReferenceIdeal.RefValue

end
-- ==== Proof.lean ====
/-
  Additive attention scores followed by a softmax over positions: a two-region kernel against its jnp reference.

  With `enc : [1024, 64, 1024]`, `s : [1, 64, 512]`, `W : [512, 1536]`, `v : [1, 512]`, both programs compute
    out(b, l) = softmax over l of  Σ_e tanh( Σ_{c<1024} enc(l,b,c)·W(e,c) + Σ_{d<512} s(0,b,d)·W(e,1024+d) ) · v(0,e).
  The kernel's first region walks a 32 × 2 grid: per block of 32 positions it accumulates the contraction over `c` in two
  halves of 512 into a scratch accumulator started from zero, and at the second half adds the decoder term (a host
  product), applies tanh, multiplies by `v` and sums over `e`; its second region is the softmax down the columns of the
  score array, transposed.  Over the extended reals the two halves of a sum are the sum, the kernel's and the host's
  tanh, exp and quotient are one function each, and the reference's extra maximum with the bottom element is the
  identity: so the two results are equal index by index (the specification `Cert.Spec.G`), with no appeal to finiteness.

  The three frames: each kernel program's from its run through the host operations and the two regions (every buffer's
  final contents a fold through the program, the arguments read back to their launch contents), the reference's from
  its run as a list of host operations.  The idealization rewrote nothing, so its statement is `True`.
-/
import proofs.«123207_j19739669692939_2_alg».proof.Defs
import proofs.«123207_j19739669692939_2_alg».proof.Proof.Gen.Kernel
import proofs.«123207_j19739669692939_2_alg».proof.Proof.Gen.KernelIdeal
import proofs.«123207_j19739669692939_2_alg».proof.Proof.Gen.ReferenceIdeal
import proofs.«123207_j19739669692939_2_alg».proof.Proof.Gen.Pre_finite_inputs
import proofs.«123207_j19739669692939_2_alg».proof.Proof.Gen.ReferenceIdeal.Run
import proofs.«123207_j19739669692939_2_alg».proof.Proof.KRun
import proofs.«123207_j19739669692939_2_alg».proof.Proof.KiResult
import proofs.«123207_j19739669692939_2_alg».proof.Proof.RefIsSpec

noncomputable section

namespace Cert.Proof

open Idealize.ShloMosaic Idealize.SL.Sem

/-- The word-level kernel program runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's both end at the specification's function of
    argument arrays that agree. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v20_eq _ _ _ _).trans
    (Cert.ReferenceIdeal.RefValue.ref_is_spec _ _ _ _))).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
